-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S5000x128 : Shape := ⟨2, ![5000, 128]⟩
abbrev S5000x1 : Shape := ⟨2, ![5000, 1]⟩
abbrev S740000x128 : Shape := ⟨2, ![740000, 128]⟩
abbrev S1x128 : Shape := ⟨2, ![1, 128]⟩

abbrev nBuf : Space → Nat
  | .hbm => 57
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S100000, .i32⟩
  | .hbm, ⟨9, _⟩ => ⟨S740000, .i32⟩
  | .hbm, ⟨10, _⟩ => ⟨S_, .f32⟩
  | .hbm, ⟨11, _⟩ => ⟨S740000, .f32⟩
  | .hbm, ⟨12, _⟩ => ⟨S_, .f32⟩
  | .hbm, ⟨13, _⟩ => ⟨S100000, .f32⟩
  | .hbm, ⟨14, _⟩ => ⟨S740000x1, .i32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S1x640000, .i32⟩
  | .hbm, ⟨20, _⟩ => ⟨S640000, .i32⟩
  | .hbm, ⟨21, _⟩ => ⟨S100000, .i32⟩
  | .hbm, ⟨22, _⟩ => ⟨S740000, .i32⟩
  | .hbm, ⟨23, _⟩ => ⟨S1x640000, .i32⟩
  | .hbm, ⟨24, _⟩ => ⟨S640000, .i32⟩
  | .hbm, ⟨25, _⟩ => ⟨S100000, .i32⟩
  | .hbm, ⟨26, _⟩ => ⟨S740000, .i32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000x128, .f32⟩
  | .hbm, ⟨36, _⟩ => ⟨S_, .f32⟩
  | .hbm, ⟨37, _⟩ => ⟨S100000x128, .f32⟩
  | .hbm, ⟨38, _⟩ => ⟨S740000x1, .i32⟩
  | .hbm, ⟨39, _⟩ => ⟨S100000x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x640000_S1x640000_1_0 : S2x640000.Slices ![1, 0] S1x640000
  shapeCasts_S1x640000_S640000 : S1x640000.ShapeCasts S640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S2x640000_S1x640000_0_0 : S2x640000.Slices ![0, 0] S1x640000
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S740000x1_S740000_n_0_0_1_wf : ScatterDims.WF S100000 S740000x1 S740000 [] [0] [0] 1
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S740000, .i32⟩
  | .hbm, ⟨22, _⟩ => ⟨S740000, .i1⟩
  | .hbm, ⟨23, _⟩ => ⟨S_, .i32⟩
  | .hbm, ⟨24, _⟩ => ⟨S740000, .i32⟩
  | .hbm, ⟨25, _⟩ => ⟨S740000, .i32⟩
  | .hbm, ⟨26, _⟩ => ⟨S740000, .i32⟩
  | .hbm, ⟨27, _⟩ => ⟨S740000x1, .i32⟩
  | .hbm, ⟨28, _⟩ => ⟨S740000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S740000, .f32⟩
  | .hbm, ⟨39, _⟩ => ⟨S100000x128, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000x128, .f32⟩
  | .hbm, ⟨49, _⟩ => ⟨S740000x1, .f32⟩
  | .hbm, ⟨50, _⟩ => ⟨S740000x128, .f32⟩
  | .hbm, ⟨51, _⟩ => ⟨S740000x128, .f32⟩
  | .hbm, ⟨52, _⟩ => ⟨S_, .f32⟩
  | .hbm, ⟨53, _⟩ => ⟨S100000x128, .f32⟩
  | .hbm, ⟨54, _⟩ => ⟨S740000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_10 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.KRun.lean ====
import proofs.«178751_j4887672783235_2_alg».proof.Proof.Gen.KernelIdeal.Frame

/-! # The idealized kernel's run, with its result named

Every weakly fair execution of the program on the TensorCores terminates without a fault; in the
final state the result buffer holds what the last region's write-backs leave in it (the contents
at the last segment boundary, read at the result's reference), and the six argument arrays are as
launched.  The run is the chain of the program's six segments (three stretches of host operations,
three regions); the final state is read against the last thread state, buffer by buffer. -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments
    as launched. -/
theorem run : θ_run defs (onTc (τ := τ) (main (F := F))) ⟨m, fun _ => 0, ρ⟩ (fun r => ∀ c : Dev nD,
      r.2.mem ((c.tc : Thread nD τ).loc main_v41) = Gen.W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.RefRunB.lean ====
/-
  The reference program's @main as a list: with the three functions it calls unfolded at their calls it is one straight
  line of one hundred host operations.
-/
import proofs.«178751_j4887672783235_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: the rectifier's three (the zero, its broadcast, the maximum) over
    the buffers of the first call's record; the variance's nineteen and, nested in it, the selection's three over the
    buffers of the second call's record and of the record nested in that. -/
abbrev ops : List (HloOp τ sig (Elt F)) :=
  [
    StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst (constant S_ .f32 0x3F800000#32),
    StableHlo.unary main_cst main_v7 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S740000x1 ![0] bcast_S740000_S740000x1_0 : (⟨S740000, .i32⟩ : BufTy).Contents (Elt F) → (⟨S740000x1, .i32⟩ : BufTy).Contents (Elt F)),
    StableHlo.ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S740000 ![] bcast_S_S740000 : (⟨S_, .i32⟩ : BufTy).Contents (Elt F) → (⟨S740000, .i32⟩ : BufTy).Contents (Elt F)),
    StableHlo.binary main_v3 main_v12 main_v13 (cmpi .slt : (⟨S740000, .i32⟩ : BufTy).Contents (Elt F) → (⟨S740000, .i32⟩ : BufTy).Contents (Elt F) → (⟨S740000, .i1⟩ : BufTy).Contents (Elt F)),
    StableHlo.nullary main_c_1 (constantI S_ 32 100000#32),
    StableHlo.unary main_c_1 main_v14 (broadcastInDim S740000 ![] bcast_S_S740000 : (⟨S_, .i32⟩ : BufTy).Contents (Elt F) → (⟨S740000, .i32⟩ : BufTy).Contents (Elt F)),
    StableHlo.binary main_v3 main_v14 main_v15 (addi : (⟨S740000, .i32⟩ : BufTy).Contents (Elt F) → (⟨S740000, .i32⟩ : BufTy).Contents (Elt F) → (⟨S740000, .i32⟩ : BufTy).Contents (Elt F)),
    StableHlo.ternary main_v13 main_v15 main_v3 main_v16 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v16 main_v17 (broadcastInDim S740000x1 ![0] bcast_S740000_S740000x1_0 : (⟨S740000, .i32⟩ : BufTy).Contents (Elt F) → (⟨S740000x1, .i32⟩ : BufTy).Contents (Elt F)),
    StableHlo.binary main_v11 main_v17 main_v18 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_2 (constantI S_ 32 0#32),
    StableHlo.unary main_c_2 main_v19 (broadcastInDim S740000 ![] bcast_S_S740000 : (⟨S_, .i32⟩ : BufTy).Contents (Elt F) → (⟨S740000, .i32⟩ : BufTy).Contents (Elt F)),
    StableHlo.binary main_v6 main_v19 main_v20 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v21 (broadcastInDim S740000 ![] bcast_S_S740000 : (⟨S_, .i32⟩ : BufTy).Contents (Elt F) → (⟨S740000, .i32⟩ : BufTy).Contents (Elt F)),
    StableHlo.binary main_v6 main_v21 main_v22 (addi : (⟨S740000, .i32⟩ : BufTy).Contents (Elt F) → (⟨S740000, .i32⟩ : BufTy).Contents (Elt F) → (⟨S740000, .i32⟩ : BufTy).Contents (Elt F)),
    StableHlo.ternary main_v20 main_v22 main_v6 main_v23 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v23 main_v24 (broadcastInDim S740000x1 ![0] bcast_S740000_S740000x1_0 : (⟨S740000, .i32⟩ : BufTy).Contents (Elt F) → (⟨S740000x1, .i32⟩ : BufTy).Contents (Elt F)),
    StableHlo.binary main_v11 main_v24 main_v25 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v18 main_v25 main_v26 (mulf : (⟨S740000, .f32⟩ : BufTy).Contents (Elt F) → (⟨S740000, .f32⟩ : BufTy).Contents (Elt F) → (⟨S740000, .f32⟩ : BufTy).Contents (Elt F)),
    StableHlo.binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_4 (constantI S_ 32 0#32),
    StableHlo.unary main_c_4 main_v28 (broadcastInDim S740000 ![] bcast_S_S740000 : (⟨S_, .i32⟩ : BufTy).Contents (Elt F) → (⟨S740000, .i32⟩ : BufTy).Contents (Elt F)),
    StableHlo.binary main_v3 main_v28 main_v29 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v30 (broadcastInDim S740000 ![] bcast_S_S740000 : (⟨S_, .i32⟩ : BufTy).Contents (Elt F) → (⟨S740000, .i32⟩ : BufTy).Contents (Elt F)),
    StableHlo.binary main_v3 main_v30 main_v31 (addi : (⟨S740000, .i32⟩ : BufTy).Contents (Elt F) → (⟨S740000, .i32⟩ : BufTy).Contents (Elt F) → (⟨S740000, .i32⟩ : BufTy).Contents (Elt F)),
    StableHlo.ternary main_v29 main_v31 main_v3 main_v32 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v32 main_v33 (broadcastInDim S740000x1 ![0] bcast_S740000_S740000x1_0 : (⟨S740000, .i32⟩ : BufTy).Contents (Elt F) → (⟨S740000x1, .i32⟩ : BufTy).Contents (Elt F)),
    StableHlo.binary main_v27 main_v33 main_v34 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v26 main_v35 (broadcastInDim S740000x1 ![0] bcast_S740000_S740000x1_0 : (⟨S740000, .f32⟩ : BufTy).Contents (Elt F) → (⟨S740000x1, .f32⟩ : BufTy).Contents (Elt F)),
    StableHlo.unary main_v35 main_v36 (broadcastInDim S740000x128 ![0, 1] bcast_S740000x1_S740000x128_0_1 : (⟨S740000x1, .f32⟩ : BufTy).Contents (Elt F) → (⟨S740000x128, .f32⟩ : BufTy).Contents (Elt F)),
    StableHlo.binary main_v34 main_v36 main_v37 (mulf : (⟨S740000x128, .f32⟩ : BufTy).Contents (Elt F) → (⟨S740000x128, .f32⟩ : BufTy).Contents (Elt F) → (⟨S740000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v6 main_v39 (broadcastInDim S740000x1 ![0] bcast_S740000_S740000x1_0 : (⟨S740000, .i32⟩ : BufTy).Contents (Elt F) → (⟨S740000x1, .i32⟩ : BufTy).Contents (Elt F)),
    StableHlo.ternary main_v38 main_v39 main_v37 main_v40 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v43) main_call0.v0 main_call0.v1 maximumf,
    StableHlo.nullary main_cst_7 (constant S_ .f32 0x00000000#32),
    StableHlo.binary main_v44 main_cst_7 main_v45 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v46 (broadcastInDim S128 ![] bcast_S_S128 : (⟨S_, .f32⟩ : BufTy).Contents (Elt F) → (⟨S128, .f32⟩ : BufTy).Contents (Elt F)),
    StableHlo.binary main_v45 main_v46 main_v47 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call1.cst (constant S_ .f32 0x00000000#32),
    StableHlo.TRef.binary (.of main_v44) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v44) main_call1.v4 main_call1.v5 subf,
    StableHlo.TRef.binary main_call1.v5 main_call1.v5 main_call1.v6 mulf,
    StableHlo.TRef.unary (.of main_c_9) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v47 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v50 main_v51 (subf : (⟨S100000x128, .f32⟩ : BufTy).Contents (Elt F) → (⟨S100000x128, .f32⟩ : BufTy).Contents (Elt F) → (⟨S100000x128, .f32⟩ : BufTy).Contents (Elt F)),
    StableHlo.unary main_arg4 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v51 main_v54 (mulf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v55 (broadcastInDim S128 ![] bcast_S_S128 : (⟨S_, .f32⟩ : BufTy).Contents (Elt F) → (⟨S128, .f32⟩ : BufTy).Contents (Elt F)),
    StableHlo.binary main_v48 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg5 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

end Cert.ReferenceIdeal.RefRun

end
-- ==== Proof.RefRunC.lean ====
/-
  The reference program's @main IS the straight line of its operations.
-/
import proofs.«178751_j4887672783235_2_alg».proof.Proof.RefRunB

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

-- a chain of a hundred steps compared link by link
set_option maxHeartbeats 4000000 in
/-- @main is that straight line. Sequencing grafts a continuation onto the leaves of a finite tree, so the two windows run
    one after the other, with each called function's body unfolded at its call and each record at its fields, compute to
    the same chain of steps as the list's. -/
theorem main_eq (c : Dev nD) : main (F := F) c = seq ops := rfl

end Cert.ReferenceIdeal.RefRun

end
-- ==== Proof.RefRunA.lean ====
/-
  The reference program's result, written as a chain of small functions of its six argument arrays.

  The reference is one graph-convolution layer with self loops and symmetric normalisation, a rectifier, and a
  batch normalisation over the node axis with the batch's own statistics:
    the edge table's two rows, each followed by the node numbers 0 … 99999 (the self loops), are the source and
    destination tables of 740000 edges; the degree of a node is the number of edges that end in it; an edge's weight is
    the product of the inverse square roots of the degrees of its two ends; the aggregate at a node is the sum, over the
    edges that end in it, of the weight times the transformed row (x W) of the edge's source, plus the bias; the output
    is gamma * (r - mean r) * rsqrt (var r + eps) + beta, r the rectified aggregate, mean and var taken per column.
  Every function below is written with exactly the operations, constants and dimension records the program prints, so
  that the program's run ends at "out" by unfolding alone.
-/
import proofs.«178751_j4887672783235_2_alg».proof.Proof.Gen.ReferenceIdeal
import Idealize.ShloMosaic.PureOps

noncomputable section

namespace Cert.ReferenceIdeal.RefRun

open Cert.ReferenceIdeal Cert.ReferenceIdeal.Gen Idealize.ShloMosaic

variable {F : FTy → Type} [FloatOps F]

/-! ## The edge tables -/

/-- The node numbers 0 … 99999. -/
def iotaN : IVec S100000 32 := iotaInDim S100000 32 0

/-- The sources of the 740000 edges: row 0 of the edge table, then every node once (its self loop). -/
def srcRaw (ei : IVec S2x640000 32) : IVec S740000 32 :=
  concatenate S740000 0
    [⟨S640000, shapeCast S640000 (extractStridedSlice S1x640000 ![0, 0] ei slices_S2x640000_S1x640000_0_0)
        shapeCasts_S1x640000_S640000⟩,
     ⟨S100000, iotaN⟩]
    concatenates_S640000_S100000_S740000_d0

/-- The destinations of the 740000 edges: row 1 of the edge table, then every node once (its self loop). -/
def dstRaw (ei : IVec S2x640000 32) : IVec S740000 32 :=
  concatenate S740000 0
    [⟨S640000, shapeCast S640000 (extractStridedSlice S1x640000 ![1, 0] ei slices_S2x640000_S1x640000_1_0)
        shapeCasts_S1x640000_S640000⟩,
     ⟨S100000, iotaN⟩]
    concatenates_S640000_S100000_S740000_d0

/-- A table of node numbers with the negative ones counted from the end: t + 100000 where t < 0, t elsewhere. -/
def wrapIdx (t : IVec S740000 32) : IVec S740000 32 :=
  select (cmpi .slt t (broadcastInDim S740000 ![] bcast_S_S740000 (constantI S_ 32 0#32)))
    (addi t (broadcastInDim S740000 ![] bcast_S_S740000 (constantI S_ 32 100000#32))) t

/-- A table of 740000 entries as a column, one index vector of length one per edge. -/
def col {α : Type} (t : S740000.Idx → α) : S740000x1.Idx → α :=
  broadcastInDim S740000x1 ![0] bcast_S740000_S740000x1_0 t

/-! ## Degrees and edge weights -/

/-- The degree of each node: one added at the destination of every edge, from zero. -/
def deg (ei : IVec S2x640000 32) : FVec F S100000 .f32 :=
  Host.scatterAdd scatter_S100000_S740000x1_S740000_n_0_0_1
    (broadcastInDim S100000 ![] bcast_S_S100000 (constant S_ .f32 0x00000000#32))
    (col (dstRaw ei))
    (broadcastInDim S740000 ![] bcast_S_S740000 (constant S_ .f32 0x3F800000#32))

/-- The inverse square root of each node's degree. -/
def dinv (ei : IVec S2x640000 32) : FVec F S100000 .f32 := Host.rsqrt (deg ei)

/-- The weight of each edge: the inverse square roots of the degrees of its source and of its destination, multiplied. -/
def norm (ei : IVec S2x640000 32) : FVec F S740000 .f32 :=
  mulf (Host.gather gather_S100000_S740000x1_S740000_n_0_n_n_0_1_1 (dinv ei) (col (wrapIdx (srcRaw ei))))
    (Host.gather gather_S100000_S740000x1_S740000_n_0_n_n_0_1_1 (dinv ei) (col (wrapIdx (dstRaw ei))))

/-! ## The aggregation -/

/-- The transformed node features x W. -/
def h (x : FVec F S100000x128 .f32) (W : FVec F S128x128 .f32) : FVec F S100000x128 .f32 :=
  Host.dotGeneral dot_S100000x128_S128x128_S100000x128_1_0_0_1_n_n none x W

/-- The message of each edge: its source's transformed row times the edge's weight. -/
def msg (x : FVec F S100000x128 .f32) (ei : IVec S2x640000 32) (W : FVec F S128x128 .f32) : FVec F S740000x128 .f32 :=
  mulf (Host.gather gather_S100000x128_S740000x1_S740000x128_1_0_n_n_0_1_1128 (h x W) (col (wrapIdx (srcRaw ei))))
    (broadcastInDim S740000x128 ![0, 1] bcast_S740000x1_S740000x128_0_1 (col (norm ei)))

/-- A vector of 128 entries repeated as every one of the 100000 rows. -/
def rowBcast {α : Type} (v : S128.Idx → α) : S100000x128.Idx → α :=
  broadcastInDim S100000x128 ![0, 1] bcast_S1x128_S100000x128_0_1 (broadcastInDim S1x128 ![1] bcast_S128_S1x128_1 v)

/-- The aggregate at each node: the messages of the edges that end in it, summed from zero, plus the bias. -/
def agg (x : FVec F S100000x128 .f32) (ei : IVec S2x640000 32) (W : FVec F S128x128 .f32) (b : FVec F S128 .f32) :
    FVec F S100000x128 .f32 :=
  addf
    (Host.scatterAdd scatter_S100000x128_S740000x1_S740000x128_1_0_0_1
      (broadcastInDim S100000x128 ![] bcast_S_S100000x128 (constant S_ .f32 0x00000000#32))
      (col (dstRaw ei))
      (msg x ei W))
    (rowBcast b)

/-- The rectifier: the maximum with zero, entry by entry. -/
def relu (r : FVec F S100000x128 .f32) : FVec F S100000x128 .f32 :=
  maximumf r (broadcastInDim S100000x128 ![] bcast_S_S100000x128 (constant S_ .f32 0x00000000#32))

/-- The rectified aggregate. -/
def act (x : FVec F S100000x128 .f32) (ei : IVec S2x640000 32) (W : FVec F S128x128 .f32) (b : FVec F S128 .f32) :
    FVec F S100000x128 .f32 :=
  relu (agg x ei W b)

/-! ## Column statistics -/

/-- The sum of each column over the 100000 rows, from zero. -/
def colSum (r : FVec F S100000x128 .f32) : FVec F S128 .f32 :=
  Host.reduceAdd r (constant S_ .f32 0x00000000#32) reducesTo_S100000x128_S128_d0 h_S_

/-- The mean of each column: its sum divided by 100000. -/
def colMean (r : FVec F S100000x128 .f32) : FVec F S128 .f32 :=
  Host.divf (colSum r) (broadcastInDim S128 ![] bcast_S_S128 (constant S_ .f32 0x47C35000#32))

/-- The mean of each column again, as the variance computes it: kept as one row of 128, the division made on that row. -/
def meanRow (r : FVec F S100000x128 .f32) : FVec F S1x128 .f32 :=
  Host.divf (broadcastInDim S1x128 ![1] bcast_S128_S1x128_1 (colSum r))
    (broadcastInDim S1x128 ![] bcast_S_S1x128 (constant S_ .f32 0x47C35000#32))

/-- Each entry minus its column's mean. -/
def centred (r : FVec F S100000x128 .f32) : FVec F S100000x128 .f32 :=
  subf r (broadcastInDim S100000x128 ![0, 1] bcast_S1x128_S100000x128_0_1 (meanRow r))

/-- The squared deviations from the column means. -/
def sqDev (r : FVec F S100000x128 .f32) : FVec F S100000x128 .f32 := mulf (centred r) (centred r)

/-- The variance's divisor: 100000 minus the degrees of freedom given up, which are the integer zero converted. -/
def varDivisor : FVec F S_ .f32 :=
  subf (constant (F := F) S_ .f32 0x47C35000#32) (sitofp (F := F) .f32 (constantI S_ 32 0#32))

/-- The sum of each column's squared deviations divided by the divisor. -/
def varQuot (r : FVec F S100000x128 .f32) : FVec F S128 .f32 :=
  Host.divf (Host.reduceAdd (sqDev r) (constant S_ .f32 0x00000000#32) reducesTo_S100000x128_S128_d0 h_S_)
    (broadcastInDim S128 ![] bcast_S_S128 varDivisor)

/-- The variance of each column: the quotient where the divisor is positive, the constant of bits 0x7FC00000 elsewhere. -/
def colVar (r : FVec F S100000x128 .f32) : FVec F S128 .f32 :=
  select (broadcastInDim S128 ![] bcast_S_S128 (cmpf .ogt (varDivisor (F := F)) (constant (F := F) S_ .f32 0x00000000#32)))
    (varQuot r)
    (broadcastInDim S128 ![] bcast_S_S128 (id (constant S_ .f32 0x7FC00000#32 : FVec F S_ .f32)))

/-! ## The normalisation and the result -/

/-- The batch normalisation of r: gamma (r - mean) rsqrt (var + eps) + beta, the four factors in the program's order. -/
def bn (r : FVec F S100000x128 .f32) (g β : FVec F S128 .f32) : FVec F S100000x128 .f32 :=
  addf
    (mulf (mulf (rowBcast g) (subf r (rowBcast (colMean r))))
      (rowBcast (Host.rsqrt (addf (colVar r) (broadcastInDim S128 ![] bcast_S_S128 (constant S_ .f32 0x3727C5AC#32))))))
    (rowBcast β)

/-- The reference's result as a function of its six arguments. -/
def out (x : FVec F S100000x128 .f32) (ei : IVec S2x640000 32) (W : FVec F S128x128 .f32) (b g β : FVec F S128 .f32) :
    FVec F S100000x128 .f32 :=
  bn (act x ei W b) g β

end Cert.ReferenceIdeal.RefRun

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.RefRunD.lean ====
/-
  What the straight line of the reference's operations leaves in its result buffer and in its argument buffers, as
  functions of the contents before it: the result is "out" of the six arguments, the arguments are untouched.
-/
import proofs.«178751_j4887672783235_2_alg».proof.Proof.RefRunA
import proofs.«178751_j4887672783235_2_alg».proof.Proof.RefRunB
import proofs.«178751_j4887672783235_2_alg».proof.Proof.LibTypedRefs

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

-- the array operations stay folded: the equation is between two spellings of one composition and never looks inside them
attribute [local irreducible] Host.scatterAdd Host.gather Host.reduceAdd Host.rsqrt Host.divf concatenate broadcastInDim
  extractStridedSlice shapeCast iotaInDim constant constantI select cmpi cmpf addi addf subf mulf maximumf sitofp in
set_option maxHeartbeats 4000000 in
/-- The fold of the hundred operations at the result buffer is "out" of the arguments' contents. Each operation's result
    at its own buffer is its function of its operands' contents and at any other buffer what was there, so the fold is
    the composition of the functions along the program's data flow; a value stored through a called function's typed
    reference and read back through it is the value; what remains are the two edge tables inside the concatenations'
    operand lists, whose short folds compute, and the unfolding of the stage definitions. -/
theorem out_eq (V : Valuation τ sig (Elt F)) :
    after ops V (main_v63 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [Cert.LibTypedRefs.ofBuf_toBuf]
  rfl

/-- No operation writes argument 0: the line leaves it as it was. -/
theorem arg0_eq (V : Valuation τ sig (Elt F)) :
    after ops V (main_arg0 : DevRef τ sig) = V (main_arg0 : DevRef τ sig) := by
  after_results_simp

/-- No operation writes argument 1: the line leaves it as it was. -/
theorem arg1_eq (V : Valuation τ sig (Elt F)) :
    after ops V (main_arg1 : DevRef τ sig) = V (main_arg1 : DevRef τ sig) := by
  after_results_simp

/-- No operation writes argument 2: the line leaves it as it was. -/
theorem arg2_eq (V : Valuation τ sig (Elt F)) :
    after ops V (main_arg2 : DevRef τ sig) = V (main_arg2 : DevRef τ sig) := by
  after_results_simp

/-- No operation writes argument 3: the line leaves it as it was. -/
theorem arg3_eq (V : Valuation τ sig (Elt F)) :
    after ops V (main_arg3 : DevRef τ sig) = V (main_arg3 : DevRef τ sig) := by
  after_results_simp

/-- No operation writes argument 4: the line leaves it as it was. -/
theorem arg4_eq (V : Valuation τ sig (Elt F)) :
    after ops V (main_arg4 : DevRef τ sig) = V (main_arg4 : DevRef τ sig) := by
  after_results_simp

/-- No operation writes argument 5: the line leaves it as it was. -/
theorem arg5_eq (V : Valuation τ sig (Elt F)) :
    after ops V (main_arg5 : DevRef τ sig) = V (main_arg5 : DevRef τ sig) := by
  after_results_simp

end Cert.ReferenceIdeal.RefRun

end
-- ==== Proof.RefRun.lean ====
/-
  The run of the reference program: every weakly fair execution of its @main terminates, its result buffer then holds
  "out" of the six argument arrays as they were at the start, and the argument arrays are unchanged.
-/
import proofs.«178751_j4887672783235_2_alg».proof.Proof.RefRunC
import proofs.«178751_j4887672783235_2_alg».proof.Proof.RefRunD

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- On every device, for any float values, from any memory with zero counters: every weakly fair execution of @main
    terminates, and every final state has each buffer at the fold of the hundred operations over the contents at the
    start. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- On every device, for any float values, from any memory with zero counters: every weakly fair execution of @main
    terminates with the result buffer at "out" of the six arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = out (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v63).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_fold m ρ)

end Cert.ReferenceIdeal.RefRun

end
-- ==== Proof.GcnSpec.lean ====
/-
  One graph-convolution layer with batch normalisation, written twice over abstract data; no program is mentioned.

  Data: a factor D n for every row n (the inverse square root of its degree), the transformed rows H n k, for every
  entry (p, q) a finite set L p q of terms (the updates landing on that entry), each term j with a source row sJ j, a
  second row dJ j and a column kJ j, a bias b, a scale g, a shift β, the divisor c (the number of rows as a float
  word) and the word ε.

  * outK: every source row is scaled by its own factor before the aggregation and the aggregate of row p by D p
    afterwards; the column mean is the column sum over c; the variance is the mean of the squares minus the squared
    mean, not below zero.
  * outR: every term carries both factors D (sJ j) · D (dJ j); the sums start from zero; the variance is the mean of
    the squared deviations from the mean.
  Both end with ((g · (r − mean)) · rsqrt (var + ε)) + β.
-/
import Mathlib.Data.EReal.Inv
import Mathlib.Algebra.BigOperators.Group.Finset.Basic
import Idealize.ShloMosaic.PureOps.Ideal

noncomputable section

namespace Cert.GcnSpec

open Idealize.ShloMosaic
open scoped BigOperators

variable {ι : Type} (D : Fin 100000 → EReal) (H : Fin 100000 → Fin 128 → EReal)
  (L : Fin 100000 → Fin 128 → Finset ι) (sJ dJ : ι → Fin 100000) (kJ : ι → Fin 128)
  (b g β : Fin 128 → EReal) (c ε : EReal)

/-- The aggregate of rows already scaled by their own factor. -/
def aggK (p : Fin 100000) (q : Fin 128) : EReal := 0 + ∑ j ∈ L p q, H (sJ j) (kJ j) * D (sJ j)

/-- Scaled by the row's factor afterwards, plus the bias, rectified. -/
def actK (p : Fin 100000) (q : Fin 128) : EReal := max (aggK D H L sJ kJ p q * D p + b q) 0

/-- The aggregate of rows each carrying both factors. -/
def aggR (p : Fin 100000) (q : Fin 128) : EReal := 0 + ∑ j ∈ L p q, H (sJ j) (kJ j) * (D (sJ j) * D (dJ j))

/-- Plus the bias, rectified. -/
def actR (p : Fin 100000) (q : Fin 128) : EReal := max (aggR D H L sJ dJ kJ p q + b q) 0

section Norm
variable (r : Fin 100000 → Fin 128 → EReal)

/-- Column mean: the column sum over the divisor. -/
def meanK (q : Fin 128) : EReal := Ideal.div (∑ p : Fin 100000, r p q) c

/-- Mean of squares minus squared mean, not below zero. -/
def varK (q : Fin 128) : EReal :=
  max (Ideal.div (∑ p : Fin 100000, r p q * r p q) c - meanK c r q * meanK c r q) 0

/-- The normalised entry, with these two statistics. -/
def normK (p : Fin 100000) (q : Fin 128) : EReal :=
  ((g q * (r p q - meanK c r q)) * Ideal.rsqrt (varK c r q + ε)) + β q

/-- Column mean, the sum started from zero. -/
def meanR (q : Fin 128) : EReal := Ideal.div (0 + ∑ p : Fin 100000, r p q) c

/-- Mean of the squared deviations from the mean, the sum started from zero. -/
def varR (q : Fin 128) : EReal :=
  Ideal.div (0 + ∑ p : Fin 100000, (r p q - meanR c r q) * (r p q - meanR c r q)) c

/-- The normalised entry, with these two statistics. -/
def normR (p : Fin 100000) (q : Fin 128) : EReal :=
  ((g q * (r p q - meanR c r q)) * Ideal.rsqrt (varR c r q + ε)) + β q

end Norm

/-- The first spelling of the layer's output. -/
def outK (p : Fin 100000) (q : Fin 128) : EReal := normK g β c ε (actK D H L sJ kJ b) p q

/-- The second spelling of the layer's output. -/
def outR (p : Fin 100000) (q : Fin 128) : EReal := normR g β c ε (actR D H L sJ dJ kJ b) p q

end Cert.GcnSpec

end
-- ==== Proof.LibLanding.lean ====
/-
  The set of updates of an accumulating scatter that land on a given operand entry, named once.

  The exact scatter on the extended reals is "the operand's entry plus the sum of the updates whose result index is
  that entry". The set is stated here for ANY shapes and dimension record, so that it is spelt exactly as in the
  operation's definition; statements about a particular scatter then speak of landing d idx i and of membership in
  it, and never spell the set again at their own shapes.
-/
import Idealize.ShloMosaic.PureOps.Ideal

noncomputable section

namespace Cert.LibLanding

open Idealize.ShloMosaic
open scoped BigOperators

/-- The updates that land on the operand entry i. -/
def landing {s si su : Shape} (d : ScatterDims s si su) {w : Nat} (idx : IVec si w) (i : s.Idx) : Finset su.Idx :=
  Finset.univ.filter (fun j => d.resultIdx? j idx = some i)

/-- An update is in the set exactly when its result index is the entry. -/
theorem mem_landing {s si su : Shape} (d : ScatterDims s si su) {w : Nat} (idx : IVec si w) (i : s.Idx) (j : su.Idx) :
    j ∈ landing d idx i ↔ d.resultIdx? j idx = some i := by
  unfold landing
  rw [Finset.mem_filter]
  exact ⟨fun h => h.2, fun h => ⟨Finset.mem_univ _, h⟩⟩

/-- The exact accumulating scatter at an entry: the operand's entry plus the sum of the updates landing there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ landing d idx i, upd j := rfl

/-- The same for the host operation at the exact instance. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ landing d idx i, upd j := rfl

end Cert.LibLanding

end
-- ==== Proof.KHost.lean ====
/-
  The host side of the idealized kernel program, between its three regions.

  The stages are named here as functions of the argument arrays: the raw table of destination rows (row 1 of the edge
  list followed by 0, 1, …, N-1: every node's self loop), the table of source rows with negative entries wrapped by
  +N, a table as a one-column matrix, the degree (a count: an accumulating scatter of ones into zeros), its reciprocal
  square root, the aggregate of gathered rows, a vector as a one-row matrix, the mean (a sum over the node count) and
  the clamped variance (mean of squares minus squared mean, not below zero).

  Then, for each region, what every array it stages holds when the region is entered: a stage above, an argument, or
  an array an earlier region left — read back through the host operations (each buffer is written once) and through the
  regions (an input array leaves a region as it entered).
-/
import proofs.«178751_j4887672783235_2_alg».proof.Proof.Gen.KernelIdeal.Frame
import Idealize.ShloMosaic.Lib.StableHlo.Run
import Idealize.ShloMosaic.PureOps.Ideal

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## The stages -/

/-- Destination rows: row 1 of the edge list, then every node once (its self loop). -/
def dstRaw (ei : IVec S2x640000 32) : IVec S740000 32 :=
  concatenate S740000 0
    [⟨S640000, shapeCast S640000 (extractStridedSlice S1x640000 ![1, 0] ei slices_S2x640000_S1x640000_1_0) shapeCasts_S1x640000_S640000⟩,
      ⟨S100000, iotaInDim S100000 32 0⟩] concatenates_S640000_S100000_S740000_d0

/-- Source rows: row 0 of the edge list, then every node once. -/
def srcRaw (ei : IVec S2x640000 32) : IVec S740000 32 :=
  concatenate S740000 0
    [⟨S640000, shapeCast S640000 (extractStridedSlice S1x640000 ![0, 0] ei slices_S2x640000_S1x640000_0_0) shapeCasts_S1x640000_S640000⟩,
      ⟨S100000, iotaInDim S100000 32 0⟩] concatenates_S640000_S100000_S740000_d0

/-- A table with its negative entries moved up by the node count. -/
def wrapTab (t : IVec S740000 32) : IVec S740000 32 :=
  select (cmpi .slt t (broadcastInDim S740000 ![] bcast_S_S740000 (constantI S_ 32 0#32)))
    (addi t (broadcastInDim S740000 ![] bcast_S_S740000 (constantI S_ 32 100000#32))) t

/-- A table as a one-column matrix. -/
def col (t : IVec S740000 32) : IVec S740000x1 32 := broadcastInDim S740000x1 ![0] bcast_S740000_S740000x1_0 t

/-- The degree of every node: ones accumulated at the destination rows. -/
def deg (ei : IVec S2x640000 32) : FVec F S100000 .f32 :=
  Host.scatterAdd scatter_S100000_S740000x1_S740000_n_0_0_1
    (broadcastInDim S100000 ![] bcast_S_S100000 (constant S_ .f32 0x00000000#32)) (col (dstRaw ei))
    (broadcastInDim S740000 ![] bcast_S_S740000 (constant S_ .f32 0x3F800000#32))

/-- The reciprocal square root of the degree. -/
def dinv (ei : IVec S2x640000 32) : FVec F S100000 .f32 := Host.rsqrt (deg (F := F) ei)

/-- The same as a one-column matrix. -/
def dinv2 (ei : IVec S2x640000 32) : FVec F S100000x1 .f32 := shapeCast S100000x1 (dinv (F := F) ei) shapeCasts_S100000_S100000x1

/-- The aggregate: the rows of hs at the wrapped source rows, accumulated at the destination rows. -/
def aggRaw (hs : FVec F S100000x128 .f32) (ei : IVec S2x640000 32) : FVec F S100000x128 .f32 :=
  Host.scatterAdd scatter_S100000x128_S740000x1_S740000x128_1_0_0_1
    (broadcastInDim S100000x128 ![] bcast_S_S100000x128 (constant S_ .f32 0x00000000#32)) (col (dstRaw ei))
    (Host.gather gather_S100000x128_S740000x1_S740000x128_1_0_n_n_0_1_1128 hs (col (wrapTab (srcRaw ei))))

/-- A vector as a one-row matrix. -/
def row1 (v : FVec F S128 .f32) : FVec F S1x128 .f32 := shapeCast S1x128 v shapeCasts_S128_S1x128

/-- A column total over the node count. -/
def overN (s : FVec F S1x128 .f32) : FVec F S1x128 .f32 :=
  Host.divf s (broadcastInDim S1x128 ![] bcast_S_S1x128 (constant S_ .f32 0x47C35000#32))

/-- Mean of squares minus squared mean, not below zero. -/
def varClamped (s sq : FVec F S1x128 .f32) : FVec F S1x128 .f32 :=
  maximumf (subf (overN sq) (mulf (overN s) (overN s))) (broadcastInDim S1x128 ![] bcast_S_S1x128 (constant S_ .f32 0x00000000#32))

variable (m : (ℓ : Loc nD τ sig) → Buf (Elt F) ℓ) (ρ : Dev nD → PrngReg)

/-! ## The arguments at every boundary -/

theorem W1_arg (c : Dev nD) (b : Ref sig .tc) (hb : b = main_arg0 ∨ b = main_arg1 ∨ b = main_arg2 ∨ b = main_arg3 ∨ b = main_arg4 ∨ b = main_arg5) :
    W1 m ρ c (Proc.devRef .tc b) = m ((c : Thread nD τ).loc b) := by
  rcases hb with rfl | rfl | rfl | rfl | rfl | rfl <;>
    (show StableHlo.after hostOps0 (W0 m ρ c) _ = _; after_results)

/-! ## Region 0's arrays at its entry -/

theorem V1_arg0 (c : Dev nD) : V1 m ρ c main_arg0 = m ((c : Thread nD τ).loc main_arg0) := W1_arg m ρ c _ (.inl rfl)
theorem V1_arg2 (c : Dev nD) : V1 m ρ c main_arg2 = m ((c : Thread nD τ).loc main_arg2) := W1_arg m ρ c _ (.inr (.inr (.inl rfl)))

theorem V1_v9 (c : Dev nD) : V1 m ρ c main_v9 = dinv2 (F := F) (m ((c : Thread nD τ).loc main_arg1)) := by
  show StableHlo.after hostOps0 (W0 m ρ c) (Proc.devRef .tc main_v9) = _
  after_results
  rfl

/-! ## Region 1's arrays at its entry -/

theorem W2_arg1 (c : Dev nD) : W2 m ρ c (Proc.devRef .tc main_arg1) = m ((c : Thread nD τ).loc main_arg1) :=
  (W2_of_ne m ρ c main_arg1 (by decide)).trans (W1_arg m ρ c _ (.inr (.inl rfl)))
theorem W2_arg3 (c : Dev nD) : W2 m ρ c (Proc.devRef .tc main_arg3) = m ((c : Thread nD τ).loc main_arg3) :=
  (W2_of_ne m ρ c main_arg3 (by decide)).trans (W1_arg m ρ c _ (.inr (.inr (.inr (.inl rfl)))))
theorem W2_arg4 (c : Dev nD) : W2 m ρ c (Proc.devRef .tc main_arg4) = m ((c : Thread nD τ).loc main_arg4) :=
  (W2_of_ne m ρ c main_arg4 (by decide)).trans (W1_arg m ρ c _ (.inr (.inr (.inr (.inr (.inl rfl))))))
theorem W2_arg5 (c : Dev nD) : W2 m ρ c (Proc.devRef .tc main_arg5) = m ((c : Thread nD τ).loc main_arg5) :=
  (W2_of_ne m ρ c main_arg5 (by decide)).trans (W1_arg m ρ c _ (.inr (.inr (.inr (.inr (.inr rfl))))))

/-- The degree column leaves region 0 as it entered: it is one of the region's input arrays. -/
theorem W2_v9 (c : Dev nD) : W2 m ρ c (Proc.devRef .tc main_v9) = dinv2 (F := F) (m ((c : Thread nD τ).loc main_arg1)) :=
  ((W2_arr m ρ c 2).trans (((dat0 (V1 m ρ) c).arrAt_in 2 rfl _).trans (A_eq0 (V1 m ρ) c 2))).trans (V1_v9 m ρ c)

theorem V3_v28 (c : Dev nD) :
    V3 m ρ c main_v28 = aggRaw (W2 m ρ c (Proc.devRef .tc main_v10)) (m ((c : Thread nD τ).loc main_arg1)) := by
  rw [← W2_arg1 m ρ c]
  show StableHlo.after hostOps1 (W2 m ρ c) (Proc.devRef .tc main_v28) = _
  after_results_simp
  rfl

theorem V3_v9 (c : Dev nD) : V3 m ρ c main_v9 = dinv2 (F := F) (m ((c : Thread nD τ).loc main_arg1)) := by
  refine Eq.trans ?_ (W2_v9 m ρ c)
  show StableHlo.after hostOps1 (W2 m ρ c) (Proc.devRef .tc main_v9) = _
  after_results_simp

theorem V3_v29 (c : Dev nD) : V3 m ρ c main_v29 = row1 (m ((c : Thread nD τ).loc main_arg3)) := by
  rw [← W2_arg3 m ρ c]
  show StableHlo.after hostOps1 (W2 m ρ c) (Proc.devRef .tc main_v29) = _
  after_results_simp
  rfl

/-! ## Region 2's arrays at its entry -/

theorem W4_v28 (c : Dev nD) : W4 m ρ c (Proc.devRef .tc main_v28) = V3 m ρ c main_v28 :=
  (W4_arr m ρ c 0).trans (((dat1 (V3 m ρ) c).arrAt_in 0 rfl _).trans (A_eq1 (V3 m ρ) c 0))
theorem W4_v9 (c : Dev nD) : W4 m ρ c (Proc.devRef .tc main_v9) = V3 m ρ c main_v9 :=
  (W4_arr m ρ c 1).trans (((dat1 (V3 m ρ) c).arrAt_in 1 rfl _).trans (A_eq1 (V3 m ρ) c 1))
theorem W4_v29 (c : Dev nD) : W4 m ρ c (Proc.devRef .tc main_v29) = V3 m ρ c main_v29 :=
  (W4_arr m ρ c 2).trans (((dat1 (V3 m ρ) c).arrAt_in 2 rfl _).trans (A_eq1 (V3 m ρ) c 2))

theorem W4_arg4 (c : Dev nD) : W4 m ρ c (Proc.devRef .tc main_arg4) = m ((c : Thread nD τ).loc main_arg4) := by
  refine (W4_of_ne m ρ c main_arg4 (by decide)).trans (Eq.trans ?_ (W2_arg4 m ρ c))
  show StableHlo.after hostOps1 (W2 m ρ c) (Proc.devRef .tc main_arg4) = _
  after_results_simp
theorem W4_arg5 (c : Dev nD) : W4 m ρ c (Proc.devRef .tc main_arg5) = m ((c : Thread nD τ).loc main_arg5) := by
  refine (W4_of_ne m ρ c main_arg5 (by decide)).trans (Eq.trans ?_ (W2_arg5 m ρ c))
  show StableHlo.after hostOps1 (W2 m ρ c) (Proc.devRef .tc main_arg5) = _
  after_results_simp

theorem V5_v28 (c : Dev nD) : V5 m ρ c main_v28 = V3 m ρ c main_v28 := by
  refine Eq.trans ?_ (W4_v28 m ρ c)
  show StableHlo.after hostOps2 (W4 m ρ c) (Proc.devRef .tc main_v28) = _
  after_results
theorem V5_v9 (c : Dev nD) : V5 m ρ c main_v9 = dinv2 (F := F) (m ((c : Thread nD τ).loc main_arg1)) := by
  refine Eq.trans ?_ ((W4_v9 m ρ c).trans (V3_v9 m ρ c))
  show StableHlo.after hostOps2 (W4 m ρ c) (Proc.devRef .tc main_v9) = _
  after_results
theorem V5_v29 (c : Dev nD) : V5 m ρ c main_v29 = row1 (m ((c : Thread nD τ).loc main_arg3)) := by
  refine Eq.trans ?_ ((W4_v29 m ρ c).trans (V3_v29 m ρ c))
  show StableHlo.after hostOps2 (W4 m ρ c) (Proc.devRef .tc main_v29) = _
  after_results

theorem V5_v32 (c : Dev nD) : V5 m ρ c main_v32 = overN (W4 m ρ c (Proc.devRef .tc main_v30_0)) := by
  show StableHlo.after hostOps2 (W4 m ρ c) (Proc.devRef .tc main_v32) = _
  after_results
  rfl
theorem V5_v38 (c : Dev nD) :
    V5 m ρ c main_v38 = varClamped (W4 m ρ c (Proc.devRef .tc main_v30_0)) (W4 m ρ c (Proc.devRef .tc main_v30_1)) := by
  show StableHlo.after hostOps2 (W4 m ρ c) (Proc.devRef .tc main_v38) = _
  after_results
  rfl
theorem V5_v39 (c : Dev nD) : V5 m ρ c main_v39 = row1 (m ((c : Thread nD τ).loc main_arg4)) := by
  rw [← W4_arg4 m ρ c]
  show StableHlo.after hostOps2 (W4 m ρ c) (Proc.devRef .tc main_v39) = _
  after_results
  rfl
theorem V5_v40 (c : Dev nD) : V5 m ρ c main_v40 = row1 (m ((c : Thread nD τ).loc main_arg5)) := by
  rw [← W4_arg5 m ρ c]
  show StableHlo.after hostOps2 (W4 m ρ c) (Proc.devRef .tc main_v40) = _
  after_results
  rfl

end Cert.KernelIdeal.KHost

end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibScaleMoments.lean ====
/-
  GENERAL lemmas on the extended reals with the exact operations, for layers that scale before or after a sum and
  take a variance in either of its two forms; no program is mentioned, any index types and sizes.

  * Scaling a row's aggregate afterwards by the row's own factor is aggregating terms that already carry that
    factor:  (∑ₑ aₑ · sₑ) · c = ∑ₑ aₑ · (sₑ · dₑ)  when every dₑ is c.  On the extended reals a product does not
    distribute over a sum through an infinity, so every entry has to be a real number.
  * A count of at least one unit terms is a real number ≥ 1, so its reciprocal square root is a real number.
  * For real entries x₁ … xₙ and the divisor n, the mean of the squares minus the squared mean IS the mean of the
    squared deviations from the mean, and that number is not negative: clamping it at zero changes nothing.
-/
import proofs.«178751_j4887672783235_2_alg».proof.Proof.LibMoments

noncomputable section

namespace Cert.LibScaleMoments

open Idealize.ShloMosaic Cert.LibMoments
open scoped BigOperators

/-- The f32 word 0x47C35000 is the real number 100000. -/
theorem ofBits_100000 : Ideal.ofBits .f32 0x47C35000#32 = ((100000 : ℝ) : EReal) := by
  simp [Ideal.ofBits, Ideal.ieee, -EReal.coe_mul]; norm_num

/-! ## A common factor moved across a finite sum of real entries -/

/-- For real entries a product distributes over a sum of two. -/
theorem add_mul_isR {x y c : EReal} (hx : IsR x) (hy : IsR y) (hc : IsR c) : (x + y) * c = x * c + y * c := by
  obtain ⟨a, rfl⟩ := hx; obtain ⟨b, rfl⟩ := hy; obtain ⟨d, rfl⟩ := hc
  rw [← EReal.coe_add, ← EReal.coe_mul, ← EReal.coe_mul, ← EReal.coe_mul, ← EReal.coe_add, add_mul]

/-- For real entries a product distributes over a finite sum. -/
theorem sum_mul_isR {ι : Type*} (S : Finset ι) (f : ι → EReal) (c : EReal) (hf : ∀ e ∈ S, IsR (f e)) (hc : IsR c) :
    (∑ e ∈ S, f e) * c = ∑ e ∈ S, f e * c := by
  classical
  induction S using Finset.induction_on with
  | empty => simp
  | insert a S ha ih =>
    rw [Finset.sum_insert ha, Finset.sum_insert ha,
      add_mul_isR (hf a (Finset.mem_insert_self a S))
        (IsR.finset_sum S f fun e he => hf e (Finset.mem_insert_of_mem he)) hc,
      ih fun e he => hf e (Finset.mem_insert_of_mem he)]

/-- Scaling the aggregate of a row by the row's factor c is aggregating terms that carry, beside their own factor
    s e, a second factor d e equal to c on every term of the row. -/
theorem scale_after_eq_scale_before {ι : Type*} (S : Finset ι) (a s d : ι → EReal) (c : EReal)
    (ha : ∀ e ∈ S, IsR (a e)) (hs : ∀ e ∈ S, IsR (s e)) (hc : IsR c) (hd : ∀ e ∈ S, d e = c) :
    (0 + ∑ e ∈ S, a e * s e) * c = 0 + ∑ e ∈ S, a e * (s e * d e) := by
  rw [zero_add, zero_add, sum_mul_isR S _ c (fun e he => (ha e he).mul (hs e he)) hc]
  exact Finset.sum_congr rfl fun e he => by rw [hd e he, mul_assoc]

/-! ## A count of unit terms, and its reciprocal square root -/

/-- Adding the unit n times gives the real number n. -/
theorem nsmul_one (n : ℕ) : n • (1 : EReal) = ((n : ℝ) : EReal) := by
  induction n with
  | zero => simp
  | succ k ih => rw [succ_nsmul, ih, Nat.cast_succ, EReal.coe_add, EReal.coe_one]

/-- Zero plus a sum of ones over a set that is not empty is a real number that is at least one. -/
theorem count_real {ι : Type*} (S : Finset ι) (hS : S.Nonempty) :
    ∃ r : ℝ, 1 ≤ r ∧ (0 : EReal) + ∑ _e ∈ S, (1 : EReal) = (r : EReal) := by
  refine ⟨(S.card : ℝ), ?_, ?_⟩
  · exact_mod_cast Finset.card_pos.mpr hS
  · rw [zero_add, Finset.sum_const, nsmul_one]

/-- The reciprocal square root of a real number that is at least one is a real number. -/
theorem isR_rsqrt_of_one_le {x : EReal} (r : ℝ) (hr : 1 ≤ r) (hx : x = (r : EReal)) : IsR (Ideal.rsqrt x) := by
  rw [hx, rsqrt_pos r (lt_of_lt_of_le zero_lt_one hr)]
  exact ⟨_, rfl⟩

/-! ## The two formulas for a variance, and the clamp at zero -/

/-- The mean of the squared deviations of real entries from any real number, over a positive divisor, is not
    negative. -/
theorem mean_sq_dev_nonneg (n : ℕ) (X : Fin n → EReal) (hX : ∀ p, IsR (X p)) (μ : EReal) (hμ : IsR μ) (N : ℝ) (hN : 0 < N) :
    0 ≤ Ideal.div (∑ p, (X p - μ) * (X p - μ)) (N : EReal) := by
  choose P hP using hX
  obtain ⟨u, rfl⟩ := hμ
  have hsum : ∑ p, (X p - (u : EReal)) * (X p - (u : EReal)) = ((∑ p, (P p - u) * (P p - u) : ℝ) : EReal) := by
    rw [← coe_finset_sum]
    exact Finset.sum_congr rfl fun p _ => by rw [hP p, ← EReal.coe_sub, ← EReal.coe_mul]
  rw [hsum, div_coe_coe _ _ hN.ne']
  exact EReal.coe_nonneg.mpr (div_nonneg (Finset.sum_nonneg fun p _ => mul_self_nonneg _) hN.le)

/-- For real entries and the divisor c = n: the mean of the squares minus the squared mean, clamped at zero, is the
    mean of the squared deviations from the mean. -/
theorem clamped_moments_eq (n : ℕ) (X : Fin n → EReal) (hX : ∀ p, IsR (X p)) (c : EReal) (N : ℝ) (hc : c = (N : EReal))
    (hn : (n : ℝ) = N) (hN : 0 < N) :
    max (Ideal.div (∑ p, X p * X p) c - Ideal.div (∑ q, X q) c * Ideal.div (∑ q, X q) c) 0
      = Ideal.div (∑ p, (X p - Ideal.div (∑ q, X q) c) * (X p - Ideal.div (∑ q, X q) c)) c := by
  rw [← variance_isR_of_eq n X hX c N hc hn hN.ne']
  refine max_eq_left ?_
  subst hc
  exact mean_sq_dev_nonneg n X hX _ ((IsR.sum X hX).div_real _ (IsR.coe N) (by exact_mod_cast hN.ne')) N hN

end Cert.LibScaleMoments

end
-- ==== Proof.KTables.lean ====
/-
  The index tables read at an entry, and the degree.

  * A table as a one-column matrix, at (e, 0), is the table at e; the wrapped table at e is the word at e with the node
    count added when the word is negative.
  * A word that, read signed, is a row number n below the node count is left alone by the wrap, and the row a gather
    reads for it is n itself: so at every entry where an update lands on row n, the gather driven by the wrapped
    destination table reads row n.
  * The destination table ends with 0, 1, …, N-1: entry 640000 + n holds the word of n (node n's self loop), which read
    signed is n.
-/
import proofs.«178751_j4887672783235_2_alg».proof.Proof.KHost
import proofs.«178751_j4887672783235_2_alg».proof.Proof.LibRowTable
import proofs.«178751_j4887672783235_2_alg».proof.Proof.LibScaleMoments
import Idealize.ShloMosaic.Lib.Pipeline.Value
import Idealize.ShloMosaic.Lib.IdealHost
import Idealize.ShloMosaic.Lib.ValueIdx

noncomputable section

namespace Cert.KernelIdeal.KTables

open Cert.KernelIdeal Cert.KernelIdeal.KHost Idealize.ShloMosaic Idealize.ShloMosaic.ValueIdx Cert.LibRowTable Cert.LibMoments
open scoped BigOperators

/-! ## Tables at an entry -/

/-- A one-column table at (e, 0) is the table at e. -/
theorem col_apply (t : IVec S740000 32) (e : Fin 740000) : col t (ix2 e (0 : Fin 1)) = t (ix1 e) := by
  unfold col
  refine broadcastInDim_apply _ _ t _ (ix1 e) fun a => ?_
  obtain rfl : a = 0 := Subsingleton.elim _ _
  rfl

/-- The wrap on one word. -/
def wrapWord (w : BitVec 32) : BitVec 32 := Scalar.select (IntOp.cmpi .slt w 0#32) (IntOp.addi w 100000#32) w

/-- The wrapped table at e is the wrap of the word at e. -/
theorem wrapTab_apply (t : IVec S740000 32) (i : S740000.Idx) : wrapTab t i = wrapWord (t i) := rfl

/-- A word that is not negative when read signed is left alone. -/
theorem wrapWord_of_nonneg (w : BitVec 32) (h : 0 ≤ w.toInt) : wrapWord w = w := by
  unfold wrapWord
  have hc : IntOp.cmpi .slt w 0#32 = 0#1 := by
    unfold IntOp.cmpi
    have : w.slt 0#32 = false := by
      simp only [BitVec.slt, BitVec.toInt_zero, decide_eq_false_iff_not, not_lt]
      exact h
    simp only [this]
    rfl
  rw [hc, select_zero]

/-- The row a gather reads for a word that, read signed, is the row number n. -/
theorem srcRow_of_toInt (w : BitVec 32) (n : Fin 100000) (h : w.toInt = (n.val : Int)) :
    srcRow 100000 (by decide) w = n := by
  refine Fin.ext ?_
  show min w.toInt.toNat (100000 - 1) = n.val
  rw [h, Int.toNat_natCast]
  have := n.isLt
  omega

/-- Where the destination word is the row number n, the wrapped word still names row n. -/
theorem srcRow_wrap_of_toInt (w : BitVec 32) (n : Fin 100000) (h : w.toInt = (n.val : Int)) :
    srcRow 100000 (by decide) (wrapWord w) = n := by
  rw [wrapWord_of_nonneg w (by rw [h]; exact Int.natCast_nonneg _)]
  exact srcRow_of_toInt w n h

/-! ## The self loops -/

/-- Entry 640000 + n of the destination table is the word of n. -/
theorem dstRaw_loop (ei : IVec S2x640000 32) (n : Fin 100000) :
    dstRaw ei (ix1 (⟨640000 + n.val, by have := n.isLt; omega⟩ : Fin 740000)) = BitVec.ofNat 32 n.val := by
  unfold dstRaw
  refine (concatenate_pair_apply_right (t := S740000) (s₁ := S640000) (s₂ := S100000) (0 : Fin 1) _ (iotaInDim S100000 32 0) _ _ rfl rfl (ix1 n) ?_ ?_).trans ?_
  · intro b hb
    obtain rfl : b = 0 := Subsingleton.elim _ _
    exact absurd rfl hb
  · show n.val + 640000 = 640000 + n.val
    omega
  · rfl

/-- Read signed, that word is n. -/
theorem toInt_ofNat_row (n : Fin 100000) : (BitVec.ofNat 32 n.val).toInt = (n.val : Int) := by
  have hn := n.isLt
  have h1 : (BitVec.ofNat 32 n.val).toNat = n.val := by
    rw [BitVec.toNat_ofNat]; exact Nat.mod_eq_of_lt (by omega)
  unfold BitVec.toInt
  rw [h1, if_pos (by omega)]

end Cert.KernelIdeal.KTables

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.KRegion0.lean ====
import proofs.«178751_j4887672783235_2_alg».proof.Proof.Gen.KernelIdeal.Frame
import proofs.«178751_j4887672783235_2_alg».proof.Proof.LibMatmulRows
import proofs.«178751_j4887672783235_2_alg».proof.Proof.LibLayout
import Idealize.ShloMosaic.Lib.Pipeline.Value
import Idealize.ShloMosaic.Lib.ValueLayout

/-! # The first region's output array, read at an entry

The first region multiplies the feature matrix x ([100000, 128]) by the weight matrix W ([128, 128]) and
scales row p of the product by the p-th entry of a column d ([100000, 1]).  Its grid has 20 points; point t
works on rows 5000 t … 5000 t + 4999 of x, of d and of the output, and on all of W.  On extended reals the
two roundings to the short format on the way into the product are the identity, so the output array
ends holding, at (p, q),

  (sum over k of x(p, k) * W(k, q)) * d(p, 0).

The steps: the body's one stored value read at an entry of its block; each input block as rows of its
array; what a point writes back as the block of one whole-array function; the 20 row blocks cover the
array. -/

noncomputable section

namespace Cert.KernelIdeal.KRegion0

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The specification -/

/-- Entry (p, q) of the scaled product: row p of `a0` against column q of `a2`, times the p-th entry of the column `a9`. -/
def G0 (a0 : S100000x128.Idx → EReal) (a2 : S128x128.Idx → EReal) (a9 : S100000x1.Idx → EReal)
    (p : Fin 100000) (q : Fin 128) : EReal :=
  (∑ k : Fin 128, a0 (ix2 p k) * a2 (ix2 k q)) * a9 (ix2 p (0 : Fin 1))

/-- The same as one function of the array index. -/
def G0arr (a0 : S100000x128.Idx → EReal) (a2 : S128x128.Idx → EReal) (a9 : S100000x1.Idx → EReal) :
    S100000x128.Idx → EReal := fun i => G0 a0 a2 a9 (i 0) (i 1)

/-! ## The body's stored value at an entry of its block -/

/-- The product's dimension record. -/
abbrev D := dot_S5000x128_S128x128_S5000x128_1_0_0_1_n_n

theorem hrank : D.contr.rank = 1 := D.rank_contr.trans rfl
theorem hsize : D.contr.size ⟨0, by rw [hrank]; exact Nat.one_pos⟩ = 128 := (D.size_contr 0 (by decide)).trans rfl
theorem hl0 (i : S5000x128.Idx) (s : D.contr.Idx) : (D.lhsIdx i s 0).val = (i 0).val := rfl
theorem hl1 (i : S5000x128.Idx) (s : D.contr.Idx) : (D.lhsIdx i s 1).val = (s ⟨0, by rw [hrank]; exact Nat.one_pos⟩).val :=
  D.lhsIdx_val_of_single (cl := 1) rfl i s
theorem hr0 (i : S5000x128.Idx) (s : D.contr.Idx) : (D.rhsIdx i s 0).val = (s ⟨0, by rw [hrank]; exact Nat.one_pos⟩).val :=
  D.rhsIdx_val_of_single (cr := 0) rfl i s
theorem hr1 (i : S5000x128.Idx) (s : D.contr.Idx) : (D.rhsIdx i s 1).val = (i 1).val := rfl

/-- Entry (p, q) of the stored block: the product of the two loaded blocks at (p, q) — a change of format is the
    identity on extended reals, and the accumulator starts at zero — times the loaded column's entry of row p. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  refine congrArg₂ (· * ·) ?_ ?_
  · exact Cert.LibMatmulRows.matmul_rows D hrank hsize hl0 hl1 hr0 hr1 _ _ p q
  · exact (Cert.LibLayout.broadcastTo_a1_ab_apply _ _ p q).trans (congrFun (shapeCast_self x2 _) _)

/-! ## The blocks as rows of their arrays -/

theorem hz : (![0, 0] : Fin 2 → Nat) = fun _ => 0 := funext fun a => by fin_cases a <;> rfl

/-- The printed index maps over the grid: the row-blocked windows are at block row t, the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block is row 5000 t + p of the array. -/
theorem row_lt (t : Fin cfg0.N) (p : Fin 5000) : t.val * 5000 + p.val < 100000 := by
  have ht : t.val < 20 := Nat.lt_of_lt_of_eq t.isLt N_0
  have hp := p.isLt
  omega

section Blocks
variable (V : (c : Dev nD) → (b : Ref sig .tc) → Buf (Elt Ideal) ((c : Thread nD τ).loc b))

/-- The feature block at point t, at (p, k): the array at (5000 t + p, k). -/
theorem iblk0_apply (c : Dev nD) (t : Fin cfg0.N) (p : Fin 5000) (k : Fin 128) :
    iblk0 V c 0 t (ix2 p k) = V c main_arg0 (ix2 (⟨t.val * 5000 + p.val, row_lt t p⟩ : Fin 100000) k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block at every point is the whole weight matrix. -/
theorem iblk1_apply (c : Dev nD) (t : Fin cfg0.N) (k : Fin 128) (q : Fin 128) :
    iblk0 V c 1 t (ix2 k q) = V c main_arg2 (ix2 k q) := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The scale block at point t, at (p, 0): the column at (5000 t + p, 0). -/
theorem iblk2_apply (c : Dev nD) (t : Fin cfg0.N) (p : Fin 5000) :
    iblk0 V c 2 t (ix2 p (0 : Fin 1)) = V c main_v9 (ix2 (⟨t.val * 5000 + p.val, row_lt t p⟩ : Fin 100000) (0 : Fin 1)) := by
  obtain ⟨-, -, -, -, e0, e1, -⟩ := idx_facts t
  unfold iblk0
  rw [View.read_apply]
  show V c main_v9 _ = V c main_v9 _
  refine congrArg (V c main_v9) ?_
  funext a
  apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- Entry (p, q) of the output's block at point t sits in the array at (5000 t + p, q). -/
theorem oblk_emb (t : Fin cfg0.N) (p : Fin 5000) (q : Fin 128) :
    ((cfg0.win 3).blk t).view.emb (ix2 p q) = ix2 (⟨t.val * 5000 + p.val, row_lt t p⟩ : Fin 100000) q := by
  obtain ⟨-, -, -, -, -, -, e0, e1⟩ := idx_facts t
  funext a
  apply Fin.ext
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-! ## What a point writes back, and the array after the region -/

/-- What point t writes back is block t of the scaled product of the arrays as the region finds them. -/
theorem flushed_eq (c : Dev nD) (t : Fin cfg0.N) :
    (dat0 (F := Ideal) V c).flushed 3 t
      = ((cfg0.win 3).blk t).view.read (Elt Ideal) (G0arr (V c main_arg0) (V c main_arg2) (V c main_v9)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 (n0 := 5000) (n1 := 128) j⟩
  refine (pay0_apply (iblk0 V c 0 t) (iblk0 V c 1 t) (iblk0 V c 2 t) p q).trans ?_
  rw [View.read_apply, oblk_emb t p q]
  show _ = G0 (V c main_arg0) (V c main_arg2) (V c main_v9) (⟨t.val * 5000 + p.val, row_lt t p⟩ : Fin 100000) q
  unfold G0
  exact congrArg₂ (fun (x y : EReal) => x * y)
    (Finset.sum_congr rfl fun k _ => congrArg₂ (fun (x y : EReal) => x * y) (iblk0_apply V c t p k) (iblk1_apply V c t k q))
    (iblk2_apply V c t p)

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v10).slice (win0_3.rect t)).set ↔ _
  rw [View.set_slice_whole, Rect.mem_set_unit]
  exact Iff.rfl

/-- The output array after the region is the scaled product: the 20 row blocks cover it (row r is in block r / 5000). -/
theorem arr_eq (c : Dev nD) :
    (dat0 (F := Ideal) V c).arrAt 3 cfg0.N = G0arr (V c main_arg0) (V c main_arg2) (V c main_v9) :=
  (dat0 (F := Ideal) V c).arrAt_eq_of_cover 3 (G0arr (V c main_arg0) (V c main_arg2) (V c main_v9))
    (fun t _ => flushed_eq V c t) fun (i : S100000x128.Idx) => by
      have h0 : (i 0).val < 100000 := (i 0).isLt
      have h1 : (i 1).val < 128 := (i 1).isLt
      have hT : (i 0).val / 5000 < cfg0.N := Nat.lt_of_lt_of_eq (by omega : (i 0).val / 5000 < 20) N_0.symm
      obtain ⟨-, -, -, -, -, -, e0, e1⟩ := idx_facts ⟨(i 0).val / 5000, hT⟩
      refine ⟨⟨(i 0).val / 5000, hT⟩, flush0_3 _, (mem_blk ⟨(i 0).val / 5000, hT⟩ i).mpr fun a => ?_⟩
      match a with
      | ⟨0, _⟩ =>
        show win0_3.index ⟨(i 0).val / 5000, hT⟩ (0 : Fin 2) * 5000 ≤ (i 0).val
          ∧ (i 0).val < win0_3.index ⟨(i 0).val / 5000, hT⟩ (0 : Fin 2) * 5000 + 5000
        rw [e0]; show (i 0).val / 5000 * 5000 ≤ (i 0).val ∧ (i 0).val < (i 0).val / 5000 * 5000 + 5000; omega
      | ⟨1, _⟩ =>
        show win0_3.index ⟨(i 0).val / 5000, hT⟩ (1 : Fin 2) * 128 ≤ (i 1).val
          ∧ (i 1).val < win0_3.index ⟨(i 0).val / 5000, hT⟩ (1 : Fin 2) * 128 + 128
        rw [e1]; omega

/-- The output array after the region, read at (p, q). -/
theorem arr_apply (c : Dev nD) (p : Fin 100000) (q : Fin 128) :
    (dat0 (F := Ideal) V c).arrAt 3 cfg0.N (ix2 p q) = G0 (V c main_arg0) (V c main_arg2) (V c main_v9) p q :=
  congrFun (arr_eq V c) (ix2 p q)

end Blocks

end Cert.KernelIdeal.KRegion0

end
-- ==== Proof.KRegion1A.lean ====
/-
  The column-statistics region, step one: what one grid point leaves in its two accumulator rows, as a pure function
  of what it read.

  The body of the region reads a block of 5000 rows of the aggregate, the matching 5000 entries of the scaling
  column, the bias row and the two accumulator rows; it computes r = max (agg * d + b, 0) on the block and adds the
  column sums of r to the first accumulator row and the column sums of r * r to the second. At the first point of the
  grid it first overwrites both accumulator rows with zeros, so what it then adds to is the zero row; at every other
  point it adds to what the point before left.

  The four lemmas below say exactly that, for any float instance: the contents of an accumulator row after the body
  is the body's arithmetic (one pure term over the values read) applied to the blocks read and to the row the
  addition starts from.
-/
import proofs.«178751_j4887672783235_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KRegion1

open Cert.KernelIdeal Cert.KernelIdeal.Gen

variable {F : FTy → Type} [FloatOps F]

/-- The offsets of every load and store of the body: zero on both axes. -/
theorem hz : (![0, 0] : Fin 2 → Nat) = fun _ => 0 := funext fun a => by fin_cases a <;> rfl

/-- A later point, first accumulator row: the row the point before left plus the block's column sums of r. -/
theorem out_B_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 : Vec F S1x128 .f32)
    (xo3 xo4 : Vec F S1x128 .f32) :
    out1_B_3 c i a1 h1 a2 h2 a3 h3 a4 h4 a5 h5 hc x0 x1 x2 xo3 xo4 = k1_pay4 x0 x1 x2 xo3 := by
  unfold out1_B_3
  rw [View.read_writes_eq_canon _ _ _ (cover1_B_3 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h4.read_unread,
    View.ld_unit_zero (S := S5000x128) hz, View.ld_unit_zero (S := S5000x1) hz, View.ld_unit_zero (S := S1x128) hz]

/-- A later point, second accumulator row: the row the point before left plus the block's column sums of r * r. -/
theorem out_B_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 : Vec F S1x128 .f32)
    (xo3 xo4 : Vec F S1x128 .f32) :
    out1_B_4 c i a1 h1 a2 h2 a3 h3 a4 h4 a5 h5 hc x0 x1 x2 xo3 xo4 = k1_pay5 x0 x1 x2 xo4 := by
  unfold out1_B_4
  rw [View.read_writes_eq_canon _ _ _ (cover1_B_4 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h5.read_unread,
    View.ld_unit_zero (S := S5000x128) hz, View.ld_unit_zero (S := S5000x1) hz, View.ld_unit_zero (S := S1x128) hz]

/-- The first point, first accumulator row: the zero row just stored, read back, plus the block's column sums of r. -/
theorem out_A_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_3 c i a1 h1 a2 h2 a3 h3 a4 h4 a5 h5 hc x0 x1 x2 = k1_pay4 x0 x1 x2 k1_pay1 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x128) hz]
  rw [View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-- The first point, second accumulator row: the zero row just stored, read back, plus the block's column sums of
    r * r. -/
theorem out_A_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_4 c i a1 h1 a2 h2 a3 h3 a4 h4 a5 h5 hc x0 x1 x2 = k1_pay5 x0 x1 x2 k1_pay2 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) hz]
  rw [View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

end Cert.KernelIdeal.KRegion1

end
-- ==== Proof.KRegion1B.lean ====
/-
  The column-statistics region, step two: the body's arithmetic read at one entry, on the extended reals.

  With x the block of 5000 rows of the aggregate, d the matching 5000 entries of the scaling column and b the bias
  row, write r p q = max (x p q * d p + b q, 0). Entry q of the first accumulator row after the body is its entry q
  before plus the sum over the 5000 rows p of r p q; entry q of the second is its entry q before plus the sum over p
  of r p q * r p q. The casts between equal shapes are the identity, the column d is laid along the 128 lanes of each
  row and the row b along the 5000 rows, and the sum over the row axis read at lane q is the sum over p of the
  entries (p, q).
-/
import proofs.«178751_j4887672783235_2_alg».proof.Proof.Gen.KernelIdeal.Skeleton
import proofs.«178751_j4887672783235_2_alg».proof.Proof.LibLayout
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.KRegion1

open Cert.KernelIdeal Cert.KernelIdeal.Gen

/-- Over column q of a matrix, the index with row k put back on the summed axis is (k, q). -/
theorem lift_col {a b : ℕ} (h : Shape.Reduces ⟨2, ![a, b]⟩ [0] ⟨1, ![b]⟩) (q : Fin b) (k : Fin a) :
    h.lift (ix1 q) k = ix2 k q := by
  funext c
  refine Fin.ext ?_
  match c with
  | ⟨0, _⟩ => rfl
  | ⟨1, _⟩ => rfl

/-- A float sum over the row axis of a matrix, read at column q on the extended reals: the sum of the column's
    entries. -/
theorem colSum_apply {a b : ℕ} (v : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

/-- One entry of the rectified affine image of a row block: max (x p q * d p + b q, 0), the zero as the program
    spells it. -/
def relu (x0 : Vec Ideal S5000x128 .f32) (x1 : Vec Ideal S5000x1 .f32) (x2 : Vec Ideal S1x128 .f32)
    (p : Fin 5000) (q : Fin 128) : EReal :=
  max (x0 (ix2 p q) * x1 (ix2 p (0 : Fin 1)) + x2 (ix2 (0 : Fin 1) q)) (Ideal.ofBits .f32 0x00000000#32)

/-- The rectified block read at (p, q). -/
theorem pay3_apply (x0 : Vec Ideal S5000x128 .f32) (x1 : Vec Ideal S5000x1 .f32) (x2 : Vec Ideal S1x128 .f32)
    (p : Fin 5000) (q : Fin 128) : k1_pay3 (F := Ideal) x0 x1 x2 (ix2 p q) = relu x0 x1 x2 p q := by
  unfold k1_pay3 relu
  show max (shapeCast S5000x128 x0 shapeCasts_S5000x128_S5000x128 (ix2 p q)
      * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q)) _ = _
  refine congrArg₂ max (congrArg₂ (· + ·) (congrArg₂ (· * ·) ?_ ?_) ?_) rfl
  · exact congrFun (shapeCast_self x0 _) _
  · exact (Cert.LibLayout.broadcastTo_a1_ab_apply _ _ p q).trans (congrFun (shapeCast_self x1 _) _)
  · exact (broadcastTo_1b_ab_apply _ _ p q).trans (congrFun (shapeCast_self x2 _) _)

/-- The first accumulator row after the body, at lane q: its entry before plus the column sum of r. -/
theorem pay4_apply (x0 : Vec Ideal S5000x128 .f32) (x1 : Vec Ideal S5000x1 .f32) (x2 : Vec Ideal S1x128 .f32)
    (acc : Vec Ideal S1x128 .f32) (q : Fin 128) :
    k1_pay4 (F := Ideal) x0 x1 x2 acc (ix2 (0 : Fin 1) q)
      = acc (ix2 (0 : Fin 1) q) + ∑ p : Fin 5000, relu x0 x1 x2 p q := by
  unfold k1_pay4
  show shapeCast S1x128 acc shapeCasts_S1x128_S1x128 (ix2 (0 : Fin 1) q)
      + shapeCast S1x128 (multiReduction .add [0] S128 (k1_pay3 (F := Ideal) x0 x1 x2) 0x00000000#32
            reduces_S5000x128_S128 (.inl rfl) rfl)
          shapeCasts_S128_S1x128 (ix2 (0 : Fin 1) q) = _
  refine congrArg₂ (· + ·) (congrFun (shapeCast_self acc _) _) ?_
  refine (shapeCast_a_1a_apply _ _ (0 : Fin 1) q).trans ?_
  refine (colSum_apply _ _ _ _ q).trans ?_
  exact Finset.sum_congr rfl fun p _ => pay3_apply x0 x1 x2 p q

/-- The second accumulator row after the body, at lane q: its entry before plus the column sum of r * r. -/
theorem pay5_apply (x0 : Vec Ideal S5000x128 .f32) (x1 : Vec Ideal S5000x1 .f32) (x2 : Vec Ideal S1x128 .f32)
    (acc : Vec Ideal S1x128 .f32) (q : Fin 128) :
    k1_pay5 (F := Ideal) x0 x1 x2 acc (ix2 (0 : Fin 1) q)
      = acc (ix2 (0 : Fin 1) q) + ∑ p : Fin 5000, relu x0 x1 x2 p q * relu x0 x1 x2 p q := by
  unfold k1_pay5
  show shapeCast S1x128 acc shapeCasts_S1x128_S1x128 (ix2 (0 : Fin 1) q)
      + shapeCast S1x128 (multiReduction .add [0] S128
            (mulf (k1_pay3 (F := Ideal) x0 x1 x2) (k1_pay3 (F := Ideal) x0 x1 x2)) 0x00000000#32
            reduces_S5000x128_S128 (.inl rfl) rfl)
          shapeCasts_S128_S1x128 (ix2 (0 : Fin 1) q) = _
  refine congrArg₂ (· + ·) (congrFun (shapeCast_self acc _) _) ?_
  refine (shapeCast_a_1a_apply _ _ (0 : Fin 1) q).trans ?_
  refine (colSum_apply _ _ _ _ q).trans ?_
  exact Finset.sum_congr rfl fun p _ => congrArg₂ (· * ·) (pay3_apply x0 x1 x2 p q) (pay3_apply x0 x1 x2 p q)

/-- The zero rows the first point stores, read at an entry. -/
theorem pay1_apply (q : Fin 128) : k1_pay1 (F := Ideal) (ix2 (0 : Fin 1) q) = Ideal.ofBits .f32 0x00000000#32 := rfl
theorem pay2_apply (q : Fin 128) : k1_pay2 (F := Ideal) (ix2 (0 : Fin 1) q) = Ideal.ofBits .f32 0x00000000#32 := rfl

end Cert.KernelIdeal.KRegion1

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.KRegion1.lean ====
/-
  The column-statistics region, read at an entry: the two [1, 128] rows it leaves are the column sums, over all
  100000 rows, of r and of r * r, where r p q = max (agg p q * d p + b q, 0).

  The region walks 20 blocks of 5000 rows. Its two output rows are one block each, at the same place for every point,
  so they stay in their buffers from point to point and are written back once, after the last point: the arrays after
  the region hold what point 19 leaves. Point 0 leaves 0 + (block 0's column sums); point n + 1 leaves what point n
  left plus block n + 1's column sums. By induction on the point, point n leaves 0 plus the sum over the blocks
  0 … n of their column sums, and row p of block t is row 5000 t + p of the array. Twenty blocks of 5000 consecutive
  rows are the 100000 rows, each once; addition on the extended reals is commutative and associative, so the
  regrouping needs no finiteness, and the leading zero is absorbed.
-/
import proofs.«178751_j4887672783235_2_alg».proof.Proof.KRegion1A
import proofs.«178751_j4887672783235_2_alg».proof.Proof.KRegion1B
import proofs.«178751_j4887672783235_2_alg».proof.Proof.LibTotals

noncomputable section

open scoped BigOperators
open Idealize.ShloMosaic Idealize.ShloMosaic.TcCoe Idealize.SL.Sem Idealize.ShloMosaic.ValueIdx
open Idealize.ShloMosaic.Pipeline (Dat)

namespace Cert.KernelIdeal.KRegion1

open Cert.KernelIdeal Cert.KernelIdeal.Gen

/-! ## The blocks the region reads, at an entry (any float instance) -/

section Blocks

variable {F : FTy → Type} [FloatOps F]
variable (V : (c : Dev nD) → (b : Ref sig .tc) → Buf (Elt F) ((c : Thread nD τ).loc b))

/-- The index maps of the windows, decided once over the grid: the two row-block windows sit at block t, the bias
    window and the two output windows never move. -/
theorem idx_facts : ∀ t : Fin cfg1.N,
    win1_0.index t 0 = t.val ∧ win1_0.index t 1 = 0 ∧ win1_1.index t 0 = t.val ∧ win1_1.index t 1 = 0
      ∧ win1_2.index t 0 = 0 ∧ win1_2.index t 1 = 0 ∧ win1_3.index t 0 = 0 ∧ win1_3.index t 1 = 0
      ∧ win1_4.index t 0 = 0 ∧ win1_4.index t 1 = 0 :=
  (by decide +kernel : ∀ t : Fin grid1.N, _)

/-- Row p of the aggregate's block at point t is row 5000 t + p of the aggregate. -/
theorem iblk0_apply (c : Dev nD) (t : Fin cfg1.N) (p : Fin 5000) (q : Fin 128) (r : Fin 100000)
    (hr : r.val = 5000 * t.val + p.val) :
    (iblk1 V c 0 t : Vec F S5000x128 .f32) (ix2 p q) = V c main_v28 (ix2 r q) := by
  unfold iblk1
  rw [View.read_apply]
  show V c main_v28 _ = V c main_v28 _
  refine congrArg (V c main_v28) (funext fun a => Fin.ext ?_)
  match a with
  | ⟨0, _⟩ =>
    show win1_0.index t 0 * 5000 + 1 * p.val = r.val
    rw [(idx_facts t).1, hr]; omega
  | ⟨1, _⟩ =>
    show win1_0.index t 1 * 128 + 1 * q.val = q.val
    rw [(idx_facts t).2.1]; omega

/-- Entry p of the scaling column's block at point t is entry 5000 t + p of the column. -/
theorem iblk1_apply (c : Dev nD) (t : Fin cfg1.N) (p : Fin 5000) (u : Fin 1) (r : Fin 100000)
    (hr : r.val = 5000 * t.val + p.val) :
    (iblk1 V c 1 t : Vec F S5000x1 .f32) (ix2 p u) = V c main_v9 (ix2 r u) := by
  unfold iblk1
  rw [View.read_apply]
  show V c main_v9 _ = V c main_v9 _
  refine congrArg (V c main_v9) (funext fun a => Fin.ext ?_)
  match a with
  | ⟨0, _⟩ =>
    show win1_1.index t 0 * 5000 + 1 * p.val = r.val
    rw [(idx_facts t).2.2.1, hr]; omega
  | ⟨1, _⟩ =>
    show win1_1.index t 1 * 1 + 1 * u.val = u.val
    rw [(idx_facts t).2.2.2.1]; omega

/-- The bias row's block, at every point, is the bias row. -/
theorem iblk2_apply (c : Dev nD) (t : Fin cfg1.N) (u : Fin 1) (q : Fin 128) :
    (iblk1 V c 2 t : Vec F S1x128 .f32) (ix2 u q) = V c main_v29 (ix2 u q) := by
  unfold iblk1
  rw [View.read_apply]
  show V c main_v29 _ = V c main_v29 _
  refine congrArg (V c main_v29) (funext fun a => Fin.ext ?_)
  match a with
  | ⟨0, _⟩ =>
    show win1_2.index t 0 * 1 + 1 * u.val = u.val
    rw [(idx_facts t).2.2.2.2.1]; omega
  | ⟨1, _⟩ =>
    show win1_2.index t 1 * 128 + 1 * q.val = q.val
    rw [(idx_facts t).2.2.2.2.2.1]; omega

/-! ## The last write-back (any float instance) -/

/-- The last point of the grid. -/
abbrev tLast : Fin cfg1.N := ⟨19, by rw [show cfg1.N = 20 from N_1]; decide⟩

/-- What the two accumulator rows hold after the last point, as contents of the two output arrays (each array is one
    block). -/
def result3 (c : Dev nD) : Buf (Elt F) ((c : Thread nD τ).loc main_v30_0) := (outsAt1 V c 19 tLast.isLt).1
def result4 (c : Dev nD) : Buf (Elt F) ((c : Thread nD τ).loc main_v30_1) := (outsAt1 V c 19 tLast.isLt).2

/-- The one write-back of the first output, after point 19, writes what that point left: block (0, 0) of a [1, 128]
    array read through zero offsets is the array. -/
theorem flushed_eq3 (c : Dev nD) (t : Fin cfg1.N) (hf : (cfg1.win 3).flush t = true) :
    (dat1 V c).flushed 3 t = ((cfg1.win 3).blk t).view.read (Elt F) (result3 V c) := by
  have hN : cfg1.N = 20 := N_1
  have h19 : t.val = 19 := by have := (flush1_3 t).mp hf; have := t.isLt; omega
  show (cfg1.win 3).cut (grid1.coords t) ((dat1 V c).after 3 t) = _
  rw [after1_3]
  have e : (outsAt1 V c t.val t.isLt).1 = result3 V c := by
    obtain ⟨n, hn⟩ := t
    dsimp only at h19
    subst h19
    rfl
  rw [e]
  have hz' : (fun a => win1_3.index t a * main_v30_0.ty.shape.size a) = fun _ => 0 := funext fun a => by
    match a with
    | ⟨0, _⟩ => show win1_3.index t 0 * _ = 0; rw [(idx_facts t).2.2.2.2.2.2.1, Nat.zero_mul]
    | ⟨1, _⟩ => show win1_3.index t 1 * _ = 0; rw [(idx_facts t).2.2.2.2.2.2.2.1, Nat.zero_mul]
  exact (Memref.read_access_unit_zero (Elt F) main_v30_0 hz' (fun a => by rw [congrFun hz' a]; simp) (result3 V c)).symm

/-- The same for the second output. -/
theorem flushed_eq4 (c : Dev nD) (t : Fin cfg1.N) (hf : (cfg1.win 4).flush t = true) :
    (dat1 V c).flushed 4 t = ((cfg1.win 4).blk t).view.read (Elt F) (result4 V c) := by
  have hN : cfg1.N = 20 := N_1
  have h19 : t.val = 19 := by have := (flush1_4 t).mp hf; have := t.isLt; omega
  show (cfg1.win 4).cut (grid1.coords t) ((dat1 V c).after 4 t) = _
  rw [after1_4]
  have e : (outsAt1 V c t.val t.isLt).2 = result4 V c := by
    obtain ⟨n, hn⟩ := t
    dsimp only at h19
    subst h19
    rfl
  rw [e]
  have hz' : (fun a => win1_4.index t a * main_v30_1.ty.shape.size a) = fun _ => 0 := funext fun a => by
    match a with
    | ⟨0, _⟩ => show win1_4.index t 0 * _ = 0; rw [(idx_facts t).2.2.2.2.2.2.2.2.1, Nat.zero_mul]
    | ⟨1, _⟩ => show win1_4.index t 1 * _ = 0; rw [(idx_facts t).2.2.2.2.2.2.2.2.2, Nat.zero_mul]
  exact (Memref.read_access_unit_zero (Elt F) main_v30_1 hz' (fun a => by rw [congrFun hz' a]; simp) (result4 V c)).symm

/-- So the first output array ends holding what point 19 left: that point's block is the whole array. -/
theorem final3 (c : Dev nD) : (dat1 V c).arrAt 3 cfg1.N = result3 V c :=
  (dat1 V c).arrAt_eq_of_cover 3 (result3 V c) (flushed_eq3 V c) fun i =>
    ⟨tLast, (flush1_3 tLast).mpr rfl, by
      show i ∈ ((View.whole main_v30_0).slice (win1_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index tLast 0 * win1_3.size 0 ≤ (i 0 : Nat)
          ∧ (i 0 : Nat) < win1_3.index tLast 0 * win1_3.size 0 + win1_3.xsize (grid1.coords tLast) 0
        rw [show win1_3.index tLast 0 * win1_3.size 0 = 0 from by decide +kernel,
          show win1_3.xsize (grid1.coords tLast) 0 = 1 from by decide +kernel]
        omega
      | ⟨1, _⟩ =>
        show win1_3.index tLast 1 * win1_3.size 1 ≤ (i 1 : Nat)
          ∧ (i 1 : Nat) < win1_3.index tLast 1 * win1_3.size 1 + win1_3.xsize (grid1.coords tLast) 1
        rw [show win1_3.index tLast 1 * win1_3.size 1 = 0 from by decide +kernel,
          show win1_3.xsize (grid1.coords tLast) 1 = 128 from by decide +kernel]
        omega⟩

/-- The same for the second output array. -/
theorem final4 (c : Dev nD) : (dat1 V c).arrAt 4 cfg1.N = result4 V c :=
  (dat1 V c).arrAt_eq_of_cover 4 (result4 V c) (flushed_eq4 V c) fun i =>
    ⟨tLast, (flush1_4 tLast).mpr rfl, by
      show i ∈ ((View.whole main_v30_1).slice (win1_4.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_4.index tLast 0 * win1_4.size 0 ≤ (i 0 : Nat)
          ∧ (i 0 : Nat) < win1_4.index tLast 0 * win1_4.size 0 + win1_4.xsize (grid1.coords tLast) 0
        rw [show win1_4.index tLast 0 * win1_4.size 0 = 0 from by decide +kernel,
          show win1_4.xsize (grid1.coords tLast) 0 = 1 from by decide +kernel]
        omega
      | ⟨1, _⟩ =>
        show win1_4.index tLast 1 * win1_4.size 1 ≤ (i 1 : Nat)
          ∧ (i 1 : Nat) < win1_4.index tLast 1 * win1_4.size 1 + win1_4.xsize (grid1.coords tLast) 1
        rw [show win1_4.index tLast 1 * win1_4.size 1 = 0 from by decide +kernel,
          show win1_4.xsize (grid1.coords tLast) 1 = 128 from by decide +kernel]
        omega⟩

end Blocks

/-! ## On the extended reals -/

variable (V : (c : Dev nD) → (b : Ref sig .tc) → Buf (Elt Ideal) ((c : Thread nD τ).loc b))

/-- The three arrays the region reads, as the region finds them, with their entries typed as extended reals: the
    aggregate [100000, 128], the scaling column [100000, 1], the bias row [1, 128]. -/
abbrev aggArr (c : Dev nD) : S100000x128.Idx → EReal := V c main_v28
abbrev scaleCol (c : Dev nD) : S100000x1.Idx → EReal := V c main_v9
abbrev biasRow (c : Dev nD) : S1x128.Idx → EReal := V c main_v29

/-- Row p, lane q of the rectified affine image of the whole aggregate: max (agg p q * d p + b q, 0). -/
def rowRelu (c : Dev nD) (p : Fin 100000) (q : Fin 128) : EReal :=
  max (aggArr V c (ix2 p q) * scaleCol V c (ix2 p (0 : Fin 1)) + biasRow V c (ix2 (0 : Fin 1) q)) 0

/-- The same along the naturals (zero past the last row), the form the sums over blocks are regrouped in. -/
def rowReluN (c : Dev nD) (q : Fin 128) (j : ℕ) : EReal :=
  if h : j < 100000 then rowRelu V c ⟨j, h⟩ q else 0

/-- Row p of block t of the rectified image is row 5000 t + p of the whole. -/
theorem relu_iblk (c : Dev nD) (t : Fin cfg1.N) (p : Fin 5000) (q : Fin 128) :
    relu (iblk1 V c 0 t) (iblk1 V c 1 t) (iblk1 V c 2 t) p q = rowReluN V c q (p.val + 5000 * t.val) := by
  have hN : t.val < 20 := lt_of_lt_of_eq t.isLt (show cfg1.N = 20 from N_1)
  have hlt : p.val + 5000 * t.val < 100000 := by have := p.isLt; omega
  unfold rowReluN
  rw [dif_pos hlt]
  unfold relu rowRelu aggArr scaleCol biasRow
  rw [iblk0_apply V c t p q ⟨p.val + 5000 * t.val, hlt⟩ (by show p.val + 5000 * t.val = _; omega),
    iblk1_apply V c t p 0 ⟨p.val + 5000 * t.val, hlt⟩ (by show p.val + 5000 * t.val = _; omega),
    iblk2_apply V c t 0 q, Ideal.ofBits_zero_f32]

/-- The column sums of block s, at lane q, of r and of r * r. -/
def blockSum (c : Dev nD) (q : Fin 128) (s : ℕ) : EReal := ∑ k : Fin 5000, rowReluN V c q (k.val + 5000 * s)
def blockSumSq (c : Dev nD) (q : Fin 128) (s : ℕ) : EReal :=
  ∑ k : Fin 5000, rowReluN V c q (k.val + 5000 * s) * rowReluN V c q (k.val + 5000 * s)

/-- The first point leaves, in each accumulator row, zero plus its block's column sums. -/
theorem step_first (c : Dev nD) (t : Fin cfg1.N) (h0 : t.val % 20 = 0) (q : Fin 128) :
    (outsAt1 V c t.val t.isLt).1 (ix2 (0 : Fin 1) q) = 0 + blockSum V c q t.val
      ∧ (outsAt1 V c t.val t.isLt).2 (ix2 (0 : Fin 1) q) = 0 + blockSumSq V c q t.val := by
  rw [outsAt1_A V c t h0]
  dsimp only
  constructor
  · refine (congrFun (out_A_3 (F := Ideal) c (grid1.coords t) (ms1_0 t) (hs1_0 t) (ms1_1 t) (hs1_1 t) (ms1_2 t) (hs1_2 t)
      (ms1_3 t) (hs1_3 t) (ms1_4 t) (hs1_4 t) ((hcond1_0 t).mpr h0) (iblk1 V c 0 t) (iblk1 V c 1 t) (iblk1 V c 2 t))
      (ix2 (0 : Fin 1) q)).trans ?_
    refine (pay4_apply (iblk1 V c 0 t) (iblk1 V c 1 t) (iblk1 V c 2 t) (k1_pay1 (F := Ideal)) q).trans ?_
    refine congrArg₂ (· + ·) ((pay1_apply q).trans Ideal.ofBits_zero_f32) ?_
    exact Finset.sum_congr rfl fun p _ => relu_iblk V c t p q
  · refine (congrFun (out_A_4 (F := Ideal) c (grid1.coords t) (ms1_0 t) (hs1_0 t) (ms1_1 t) (hs1_1 t) (ms1_2 t) (hs1_2 t)
      (ms1_3 t) (hs1_3 t) (ms1_4 t) (hs1_4 t) ((hcond1_0 t).mpr h0) (iblk1 V c 0 t) (iblk1 V c 1 t) (iblk1 V c 2 t))
      (ix2 (0 : Fin 1) q)).trans ?_
    refine (pay5_apply (iblk1 V c 0 t) (iblk1 V c 1 t) (iblk1 V c 2 t) (k1_pay2 (F := Ideal)) q).trans ?_
    refine congrArg₂ (· + ·) ((pay2_apply q).trans Ideal.ofBits_zero_f32) ?_
    exact Finset.sum_congr rfl fun p _ => congrArg₂ (· * ·) (relu_iblk V c t p q) (relu_iblk V c t p q)

/-- A later point leaves, in each accumulator row, what the point before left plus its block's column sums. -/
theorem step_later (c : Dev nD) (t : Fin cfg1.N) (h0 : ¬t.val % 20 = 0) (q : Fin 128) :
    (outsAt1 V c t.val t.isLt).1 (ix2 (0 : Fin 1) q)
        = (outsAt1 V c (t.val - 1) (Nat.lt_of_le_of_lt (Nat.sub_le _ _) t.isLt)).1 (ix2 (0 : Fin 1) q)
          + blockSum V c q t.val
      ∧ (outsAt1 V c t.val t.isLt).2 (ix2 (0 : Fin 1) q)
        = (outsAt1 V c (t.val - 1) (Nat.lt_of_le_of_lt (Nat.sub_le _ _) t.isLt)).2 (ix2 (0 : Fin 1) q)
          + blockSumSq V c q t.val := by
  rw [outsAt1_B V c t h0]
  dsimp only
  constructor
  · refine (congrFun (out_B_3 (F := Ideal) c (grid1.coords t) (ms1_0 t) (hs1_0 t) (ms1_1 t) (hs1_1 t) (ms1_2 t) (hs1_2 t)
      (ms1_3 t) (hs1_3 t) (ms1_4 t) (hs1_4 t) (fun h => h0 ((hcond1_0 t).mp h)) (iblk1 V c 0 t) (iblk1 V c 1 t)
      (iblk1 V c 2 t) (outsAt1 V c (t.val - 1) (Nat.lt_of_le_of_lt (Nat.sub_le _ _) t.isLt)).1
      (outsAt1 V c (t.val - 1) (Nat.lt_of_le_of_lt (Nat.sub_le _ _) t.isLt)).2) (ix2 (0 : Fin 1) q)).trans ?_
    refine (pay4_apply (iblk1 V c 0 t) (iblk1 V c 1 t) (iblk1 V c 2 t)
      (outsAt1 V c (t.val - 1) (Nat.lt_of_le_of_lt (Nat.sub_le _ _) t.isLt)).1 q).trans ?_
    refine congrArg₂ (· + ·) rfl ?_
    exact Finset.sum_congr rfl fun p _ => relu_iblk V c t p q
  · refine (congrFun (out_B_4 (F := Ideal) c (grid1.coords t) (ms1_0 t) (hs1_0 t) (ms1_1 t) (hs1_1 t) (ms1_2 t) (hs1_2 t)
      (ms1_3 t) (hs1_3 t) (ms1_4 t) (hs1_4 t) (fun h => h0 ((hcond1_0 t).mp h)) (iblk1 V c 0 t) (iblk1 V c 1 t)
      (iblk1 V c 2 t) (outsAt1 V c (t.val - 1) (Nat.lt_of_le_of_lt (Nat.sub_le _ _) t.isLt)).1
      (outsAt1 V c (t.val - 1) (Nat.lt_of_le_of_lt (Nat.sub_le _ _) t.isLt)).2) (ix2 (0 : Fin 1) q)).trans ?_
    refine (pay5_apply (iblk1 V c 0 t) (iblk1 V c 1 t) (iblk1 V c 2 t)
      (outsAt1 V c (t.val - 1) (Nat.lt_of_le_of_lt (Nat.sub_le _ _) t.isLt)).2 q).trans ?_
    refine congrArg₂ (· + ·) rfl ?_
    exact Finset.sum_congr rfl fun p _ => congrArg₂ (· * ·) (relu_iblk V c t p q) (relu_iblk V c t p q)

/-- After point n each accumulator row holds, at lane q, zero plus the column sums of the blocks 0 … n. -/
theorem outs_inv (c : Dev nD) (q : Fin 128) : ∀ (n : ℕ) (h : n < cfg1.N),
    (outsAt1 V c n h).1 (ix2 (0 : Fin 1) q) = 0 + ∑ s ∈ Finset.range (n + 1), blockSum V c q s
      ∧ (outsAt1 V c n h).2 (ix2 (0 : Fin 1) q) = 0 + ∑ s ∈ Finset.range (n + 1), blockSumSq V c q s
  | 0, h => by
    have e := step_first V c ⟨0, h⟩ rfl q
    rw [Finset.sum_range_one, Finset.sum_range_one]
    exact e
  | n + 1, h => by
    have hN : cfg1.N = 20 := N_1
    have hB : ¬(⟨n + 1, h⟩ : Fin cfg1.N).val % 20 = 0 := by dsimp only; omega
    have e := step_later V c ⟨n + 1, h⟩ hB q
    have ih := outs_inv c q n (Nat.lt_of_succ_lt h)
    rw [Finset.sum_range_succ _ (n + 1), Finset.sum_range_succ _ (n + 1), ← add_assoc, ← add_assoc, ← ih.1, ← ih.2]
    exact e

/-! ## Twenty blocks of 5000 rows are the 100000 rows -/

/-- The column sums of the 20 blocks add up to the column sum over all rows. -/
theorem sum_blocks (c : Dev nD) (q : Fin 128) :
    ∑ s ∈ Finset.range 20, blockSum V c q s = ∑ p : Fin 100000, rowRelu V c p q := by
  rw [← Fin.sum_univ_eq_sum_range (fun s => blockSum V c q s) 20]
  unfold blockSum
  refine (Cert.LibTotals.sum_blocks_nat 20 5000 (rowReluN V c q)).trans ?_
  show ∑ j : Fin 100000, rowReluN V c q j.val = _
  exact Finset.sum_congr rfl fun j _ => dif_pos j.isLt

/-- The same for the squares. -/
theorem sum_blocks_sq (c : Dev nD) (q : Fin 128) :
    ∑ s ∈ Finset.range 20, blockSumSq V c q s = ∑ p : Fin 100000, rowRelu V c p q * rowRelu V c p q := by
  rw [← Fin.sum_univ_eq_sum_range (fun s => blockSumSq V c q s) 20]
  unfold blockSumSq
  refine (Cert.LibTotals.sum_blocks_nat 20 5000 (fun j => rowReluN V c q j * rowReluN V c q j)).trans ?_
  show ∑ j : Fin 100000, rowReluN V c q j.val * rowReluN V c q j.val = _
  exact Finset.sum_congr rfl fun j _ => by rw [show rowReluN V c q j.val = rowRelu V c j q from dif_pos j.isLt]

/-! ## The two output arrays after the region, at an entry -/

/-- Lane q of the first output array after the region: the sum over all 100000 rows of r. -/
theorem sum_out (c : Dev nD) (q : Fin 128) :
    (dat1 (F := Ideal) V c).arrAt 3 cfg1.N (ix2 (0 : Fin 1) q) = ∑ p : Fin 100000, rowRelu V c p q := by
  refine (congrFun (final3 V c) (ix2 (0 : Fin 1) q)).trans ?_
  unfold result3
  refine ((outs_inv V c q 19 tLast.isLt).1).trans ?_
  rw [zero_add]
  exact sum_blocks V c q

/-- Lane q of the second output array after the region: the sum over all 100000 rows of r * r. -/
theorem sumsq_out (c : Dev nD) (q : Fin 128) :
    (dat1 (F := Ideal) V c).arrAt 4 cfg1.N (ix2 (0 : Fin 1) q)
      = ∑ p : Fin 100000, rowRelu V c p q * rowRelu V c p q := by
  refine (congrFun (final4 V c) (ix2 (0 : Fin 1) q)).trans ?_
  unfold result4
  refine ((outs_inv V c q 19 tLast.isLt).2).trans ?_
  rw [zero_add]
  exact sum_blocks_sq V c q

end Cert.KernelIdeal.KRegion1

end
-- ==== Proof.KRegion2.lean ====
import proofs.«178751_j4887672783235_2_alg».proof.Proof.Gen.KernelIdeal.Frame
import proofs.«178751_j4887672783235_2_alg».proof.Proof.LibLayout
import Idealize.ShloMosaic.Lib.Pipeline.Value
import Idealize.ShloMosaic.Lib.ValueLayout

/-! # The last region's output array, read at an entry

The last region normalizes.  From the raw aggregate a ([100000, 128]), the column d ([100000, 1]) and the
rows b (bias), μ (mean), σ (variance), γ and β (each [1, 128]) it computes, at (p, q),

  r(p, q) = max (a(p, q) * d(p, 0) + b(0, q)) 0,
  out(p, q) = ((γ(0, q) * (r(p, q) - μ(0, q))) * rsqrt (σ(0, q) + ε)) + β(0, q),

with ε one fixed single-precision word, kept as its word and never evaluated, and rsqrt the reciprocal
square root of the extended reals.  The grid has 20 points; point t works on rows 5000 t … 5000 t + 4999 of
a, of d and of the output, and on all of each row operand.

The steps: the body's one stored value read at an entry of its block; each input block as rows of its
array; what a point writes back as the block of one whole-array function; the 20 row blocks cover the
array. -/

noncomputable section

namespace Cert.KernelIdeal.KRegion2

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The specification -/

/-- Entry (p, q) of the normalized array, the products grouped as the body groups them; the zero of the maximum and
    the ε under the root are kept as their single-precision words. -/
def G2 (a28 : S100000x128.Idx → EReal) (a9 : S100000x1.Idx → EReal)
    (a29 a32 a38 a39 a40 : S1x128.Idx → EReal) (p : Fin 100000) (q : Fin 128) : EReal :=
  ((a39 (ix2 (0 : Fin 1) q)
        * (max (a28 (ix2 p q) * a9 (ix2 p (0 : Fin 1)) + a29 (ix2 (0 : Fin 1) q)) (Ideal.ofBits .f32 0x00000000#32)
            - a32 (ix2 (0 : Fin 1) q)))
      * Ideal.rsqrt (a38 (ix2 (0 : Fin 1) q) + Ideal.ofBits .f32 0x3727C5AC#32))
    + a40 (ix2 (0 : Fin 1) q)

/-- The same as one function of the array index. -/
def G2arr (a28 : S100000x128.Idx → EReal) (a9 : S100000x1.Idx → EReal)
    (a29 a32 a38 a39 a40 : S1x128.Idx → EReal) : S100000x128.Idx → EReal :=
  fun i => G2 a28 a9 a29 a32 a38 a39 a40 (i 0) (i 1)

/-- The specification with the zero word evaluated: the maximum is against 0. -/
theorem G2_zero (a28 : S100000x128.Idx → EReal) (a9 : S100000x1.Idx → EReal)
    (a29 a32 a38 a39 a40 : S1x128.Idx → EReal) (p : Fin 100000) (q : Fin 128) :
    G2 a28 a9 a29 a32 a38 a39 a40 p q
      = ((a39 (ix2 (0 : Fin 1) q)
            * (max (a28 (ix2 p q) * a9 (ix2 p (0 : Fin 1)) + a29 (ix2 (0 : Fin 1) q)) 0 - a32 (ix2 (0 : Fin 1) q)))
          * Ideal.rsqrt (a38 (ix2 (0 : Fin 1) q) + Ideal.ofBits .f32 0x3727C5AC#32))
        + a40 (ix2 (0 : Fin 1) q) := by
  unfold G2
  rw [Ideal.ofBits_zero_f32]

/-! ## The body's stored value at an entry of its block -/

/-- One row [1, 128] laid along 5000 rows, after the identity cast, at (p, q): the row's entry q. -/
theorem row_apply (v : Vec Ideal S1x128 .f32) (h : S1x128.ShapeCasts S1x128) (hb : S1x128.Broadcasts S5000x128)
    (p : Fin 5000) (q : Fin 128) :
    broadcastTo S5000x128 (shapeCast S1x128 v h) hb (ix2 p q) = v (ix2 (0 : Fin 1) q) :=
  (broadcastTo_1b_ab_apply _ hb p q).trans (congrFun (shapeCast_self v h) _)

/-- Entry (p, q) of the stored block, from the loaded blocks: every cast is the identity, the column is laid along the
    lanes and each row along the rows, and the arithmetic is the extended reals'. -/
theorem pay2_apply (v0 : Vec Ideal S5000x128 .f32) (v2 : Vec Ideal S5000x1 .f32) (v6 v12 v17 v19 v27 : Vec Ideal S1x128 .f32)
    (p : Fin 5000) (q : Fin 128) :
    k2_pay1 (F := Ideal) v0 v2 v6 v12 v17 v19 v27 (ix2 p q)
      = ((v17 (ix2 (0 : Fin 1) q)
            * (max (v0 (ix2 p q) * v2 (ix2 p (0 : Fin 1)) + v6 (ix2 (0 : Fin 1) q)) (Ideal.ofBits .f32 0x00000000#32)
                - v19 (ix2 (0 : Fin 1) q)))
          * Ideal.rsqrt (v12 (ix2 (0 : Fin 1) q) + Ideal.ofBits .f32 0x3727C5AC#32))
        + v27 (ix2 (0 : Fin 1) q) := by
  unfold k2_pay1
  refine congrArg₂ (fun (x y : EReal) => x + y) ?_ (row_apply v27 _ _ p q)
  refine congrArg₂ (fun (x y : EReal) => x * y) ?_ ?_
  · refine congrArg₂ (fun (x y : EReal) => x * y) (row_apply v17 _ _ p q) ?_
    refine congrArg₂ (fun (x y : EReal) => x - y) ?_ (row_apply v19 _ _ p q)
    refine congrArg₂ (fun (x y : EReal) => max x y) ?_ rfl
    refine congrArg₂ (fun (x y : EReal) => x + y) ?_ (row_apply v6 _ _ p q)
    exact congrArg₂ (fun (x y : EReal) => x * y) (congrFun (shapeCast_self v0 _) _)
      ((Cert.LibLayout.broadcastTo_a1_ab_apply _ _ p q).trans (congrFun (shapeCast_self v2 _) _))
  · refine (broadcastTo_1b_ab_apply _ _ p q).trans ?_
    exact congrArg Ideal.rsqrt (congrArg₂ (fun (x y : EReal) => x + y) (congrFun (shapeCast_self v12 _) _) rfl)

/-! ## The blocks as rows of their arrays -/

theorem hz : (![0, 0] : Fin 2 → Nat) = fun _ => 0 := funext fun a => by fin_cases a <;> rfl

/-- The printed index maps over the grid: the row-blocked windows (the aggregate, the column, the output) are at block
    row t; each [1, 128] window is at block (0, 0). -/
theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = t.val ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 2) = 0 ∧ win2_4.index t (1 : Fin 2) = 0 :=
  (by decide +kernel : ∀ t : Fin grid2.N, _)
theorem idx_w5 : ∀ t : Fin cfg2.N, win2_5.index t (0 : Fin 2) = 0 ∧ win2_5.index t (1 : Fin 2) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)
theorem idx_w7 : ∀ t : Fin cfg2.N, win2_7.index t (0 : Fin 2) = t.val ∧ win2_7.index t (1 : Fin 2) = 0 :=
  (by decide +kernel : ∀ t : Fin grid2.N, _)

/-- Row p of point t's block is row 5000 t + p of the array. -/
theorem row_lt (t : Fin cfg2.N) (p : Fin 5000) : t.val * 5000 + p.val < 100000 := by
  have ht : t.val < 20 := Nat.lt_of_lt_of_eq t.isLt N_2
  have hp := p.isLt
  omega

section Blocks
variable (V : (c : Dev nD) → (b : Ref sig .tc) → Buf (Elt Ideal) ((c : Thread nD τ).loc b))

/-- The aggregate's block at point t, at (p, q): the array at (5000 t + p, q). -/
theorem iblk_a (c : Dev nD) (t : Fin cfg2.N) (p : Fin 5000) (q : Fin 128) :
    iblk2 V c 0 t (ix2 p q) = V c main_v28 (ix2 (⟨t.val * 5000 + p.val, row_lt t p⟩ : Fin 100000) q) := by
  obtain ⟨e0, e1⟩ := idx_w0 t
  unfold iblk2
  rw [View.read_apply]
  show V c main_v28 _ = V c main_v28 _
  refine congrArg (V c main_v28) ?_
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- The column's block at point t, at (p, 0): the column at (5000 t + p, 0). -/
theorem iblk_d (c : Dev nD) (t : Fin cfg2.N) (p : Fin 5000) :
    iblk2 V c 1 t (ix2 p (0 : Fin 1)) = V c main_v9 (ix2 (⟨t.val * 5000 + p.val, row_lt t p⟩ : Fin 100000) (0 : Fin 1)) := by
  obtain ⟨e0, e1⟩ := idx_w1 t
  unfold iblk2
  rw [View.read_apply]
  show V c main_v9 _ = V c main_v9 _
  refine congrArg (V c main_v9) ?_
  funext a
  apply Fin.ext
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

/-- The bias block at every point is the whole bias row. -/
theorem iblk_b (c : Dev nD) (t : Fin cfg2.N) (q : Fin 128) :
    iblk2 V c 2 t (ix2 (0 : Fin 1) q) = V c main_v29 (ix2 (0 : Fin 1) q) := by
  obtain ⟨e0, e1⟩ := idx_w2 t
  unfold iblk2
  rw [View.read_apply]
  show V c main_v29 _ = V c main_v29 _
  refine congrArg (V c main_v29) ?_
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The mean block at every point is the whole mean row. -/
theorem iblk_mu (c : Dev nD) (t : Fin cfg2.N) (q : Fin 128) :
    iblk2 V c 3 t (ix2 (0 : Fin 1) q) = V c main_v32 (ix2 (0 : Fin 1) q) := by
  obtain ⟨e0, e1⟩ := idx_w3 t
  unfold iblk2
  rw [View.read_apply]
  show V c main_v32 _ = V c main_v32 _
  refine congrArg (V c main_v32) ?_
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The variance block at every point is the whole variance row. -/
theorem iblk_sig (c : Dev nD) (t : Fin cfg2.N) (q : Fin 128) :
    iblk2 V c 4 t (ix2 (0 : Fin 1) q) = V c main_v38 (ix2 (0 : Fin 1) q) := by
  obtain ⟨e0, e1⟩ := idx_w4 t
  unfold iblk2
  rw [View.read_apply]
  show V c main_v38 _ = V c main_v38 _
  refine congrArg (V c main_v38) ?_
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- The scale block at every point is the whole scale row. -/
theorem iblk_g (c : Dev nD) (t : Fin cfg2.N) (q : Fin 128) :
    iblk2 V c 5 t (ix2 (0 : Fin 1) q) = V c main_v39 (ix2 (0 : Fin 1) q) := by
  obtain ⟨e0, e1⟩ := idx_w5 t
  unfold iblk2
  rw [View.read_apply]
  show V c main_v39 _ = V c main_v39 _
  refine congrArg (V c main_v39) ?_
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

/-- The shift block at every point is the whole shift row. -/
theorem iblk_beta (c : Dev nD) (t : Fin cfg2.N) (q : Fin 128) :
    iblk2 V c 6 t (ix2 (0 : Fin 1) q) = V c main_v40 (ix2 (0 : Fin 1) q) := by
  obtain ⟨e0, e1⟩ := idx_w6 t
  unfold iblk2
  rw [View.read_apply]
  show V c main_v40 _ = V c main_v40 _
  refine congrArg (V c main_v40) ?_
  funext a
  apply Fin.ext
  match a with
  | ⟨0, _⟩ => show win2_6.index t (0 : Fin 2) * 1 + 1 * 0 = 0; rw [e0]
  | ⟨1, _⟩ => show win2_6.index t (1 : Fin 2) * 128 + 1 * q.val = q.val; rw [e1]; omega

/-- Entry (p, q) of the output's block at point t sits in the array at (5000 t + p, q). -/
theorem oblk_emb (t : Fin cfg2.N) (p : Fin 5000) (q : Fin 128) :
    ((cfg2.win 7).blk t).view.emb (ix2 p q) = ix2 (⟨t.val * 5000 + p.val, row_lt t p⟩ : Fin 100000) q := by
  obtain ⟨e0, e1⟩ := idx_w7 t
  funext a
  apply Fin.ext
  match a with
  | ⟨0, _⟩ => show win2_7.index t (0 : Fin 2) * 5000 + 1 * p.val = t.val * 5000 + p.val; rw [e0]; omega
  | ⟨1, _⟩ => show win2_7.index t (1 : Fin 2) * 128 + 1 * q.val = q.val; rw [e1]; omega

/-! ## What a point writes back, and the array after the region -/

/-- What point t writes back is block t of the normalized array of the arrays as the region finds them. -/
theorem flushed_eq (c : Dev nD) (t : Fin cfg2.N) :
    (dat2 (F := Ideal) V c).flushed 7 t
      = ((cfg2.win 7).blk t).view.read (Elt Ideal)
          (G2arr (V c main_v28) (V c main_v9) (V c main_v29) (V c main_v32) (V c main_v38) (V c main_v39) (V c main_v40)) := by
  show (cfg2.win 7).cut (grid2.coords t) ((dat2 (F := Ideal) V c).after 7 t) = _
  rw [after2_7]
  unfold out2_7
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  refine (pay2_apply (iblk2 V c 0 t) (iblk2 V c 1 t) (iblk2 V c 2 t) (iblk2 V c 4 t) (iblk2 V c 5 t) (iblk2 V c 3 t)
    (iblk2 V c 6 t) p q).trans ?_
  rw [View.read_apply, oblk_emb t p q]
  show _ = G2 (V c main_v28) (V c main_v9) (V c main_v29) (V c main_v32) (V c main_v38) (V c main_v39) (V c main_v40)
    (⟨t.val * 5000 + p.val, row_lt t p⟩ : Fin 100000) q
  unfold G2
  exact congrArg₂ (fun (x y : EReal) => x + y)
    (congrArg₂ (fun (x y : EReal) => x * y)
      (congrArg₂ (fun (x y : EReal) => x * y) (iblk_g V c t q)
        (congrArg₂ (fun (x y : EReal) => x - y)
          (congrArg₂ (fun (x y : EReal) => max x y)
            (congrArg₂ (fun (x y : EReal) => x + y)
              (congrArg₂ (fun (x y : EReal) => x * y) (iblk_a V c t p q) (iblk_d V c t p))
              (iblk_b V c t q))
            rfl)
          (iblk_mu V c t q)))
      (congrArg Ideal.rsqrt (congrArg₂ (fun (x y : EReal) => x + y) (iblk_sig V c t q) rfl)))
    (iblk_beta V c t q)

/-- An index of the array is in point t's block iff each coordinate is in the block's range on its axis. -/
theorem mem_blk (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v41).slice (win2_7.rect t)).set ↔ _
  rw [View.set_slice_whole, Rect.mem_set_unit]
  exact Iff.rfl

/-- The output array after the region is the normalized array: the 20 row blocks cover it (row r is in block r / 5000). -/
theorem arr_eq (c : Dev nD) :
    (dat2 (F := Ideal) V c).arrAt 7 cfg2.N
      = G2arr (V c main_v28) (V c main_v9) (V c main_v29) (V c main_v32) (V c main_v38) (V c main_v39) (V c main_v40) :=
  (dat2 (F := Ideal) V c).arrAt_eq_of_cover 7
    (G2arr (V c main_v28) (V c main_v9) (V c main_v29) (V c main_v32) (V c main_v38) (V c main_v39) (V c main_v40))
    (fun t _ => flushed_eq V c t) fun (i : S100000x128.Idx) => by
      have h0 : (i 0).val < 100000 := (i 0).isLt
      have h1 : (i 1).val < 128 := (i 1).isLt
      have hT : (i 0).val / 5000 < cfg2.N := Nat.lt_of_lt_of_eq (by omega : (i 0).val / 5000 < 20) N_2.symm
      obtain ⟨e0, e1⟩ := idx_w7 ⟨(i 0).val / 5000, hT⟩
      refine ⟨⟨(i 0).val / 5000, hT⟩, flush2_7 _, (mem_blk ⟨(i 0).val / 5000, hT⟩ i).mpr fun a => ?_⟩
      match a with
      | ⟨0, _⟩ =>
        show win2_7.index ⟨(i 0).val / 5000, hT⟩ (0 : Fin 2) * 5000 ≤ (i 0).val
          ∧ (i 0).val < win2_7.index ⟨(i 0).val / 5000, hT⟩ (0 : Fin 2) * 5000 + 5000
        rw [e0]; show (i 0).val / 5000 * 5000 ≤ (i 0).val ∧ (i 0).val < (i 0).val / 5000 * 5000 + 5000; omega
      | ⟨1, _⟩ =>
        show win2_7.index ⟨(i 0).val / 5000, hT⟩ (1 : Fin 2) * 128 ≤ (i 1).val
          ∧ (i 1).val < win2_7.index ⟨(i 0).val / 5000, hT⟩ (1 : Fin 2) * 128 + 128
        rw [e1]; omega

/-- The output array after the region, read at (p, q). -/
theorem arr_apply (c : Dev nD) (p : Fin 100000) (q : Fin 128) :
    (dat2 (F := Ideal) V c).arrAt 7 cfg2.N (ix2 p q)
      = G2 (V c main_v28) (V c main_v9) (V c main_v29) (V c main_v32) (V c main_v38) (V c main_v39) (V c main_v40) p q :=
  congrFun (arr_eq V c) (ix2 p q)

end Blocks

end Cert.KernelIdeal.KRegion2

end
-- ==== Proof.KEntry.lean ====
/-
  The idealized kernel program's result, read at an entry, is the first spelling of the abstract layer.

  Reading backwards from the result: the last region normalises the rectified rows with the column mean and the
  clamped variance; both statistics are column totals, left by the middle region, over the node count; the rectified
  rows are the aggregate scaled by the row's factor, plus the bias, against zero; the aggregate at (p, q) is zero plus,
  for every update landing on (p, q), the entry of the scaled product at the update's source row and column; and the
  scaled product, left by the first region, is the product of the features and the weights times the row's factor.
  Every step is a reading of one stage at one entry; no arithmetic law is used.
-/
import proofs.«178751_j4887672783235_2_alg».proof.Proof.GcnSpec
import proofs.«178751_j4887672783235_2_alg».proof.Proof.LibLanding
import proofs.«178751_j4887672783235_2_alg».proof.Proof.KHost
import proofs.«178751_j4887672783235_2_alg».proof.Proof.KTables
import proofs.«178751_j4887672783235_2_alg».proof.Proof.LibRowTable
import proofs.«178751_j4887672783235_2_alg».proof.Proof.LibLayout
import proofs.«178751_j4887672783235_2_alg».proof.Proof.KRegion0
import proofs.«178751_j4887672783235_2_alg».proof.Proof.KRegion1
import proofs.«178751_j4887672783235_2_alg».proof.Proof.KRegion2
import Idealize.ShloMosaic.Lib.IdealHost
import Idealize.ShloMosaic.Lib.ValueLayout

noncomputable section

open scoped BigOperators
open Idealize.ShloMosaic Idealize.ShloMosaic.TcCoe Idealize.SL.Sem Idealize.ShloMosaic.ValueIdx

namespace Cert.KernelIdeal.KEntry

open Cert.KernelIdeal Cert.KernelIdeal.Gen

/-! ## The abstract data, read off the argument arrays -/

/-- The transformed rows: row n of the features against column k of the weights. -/
def Hf (x : S100000x128.Idx → EReal) (Wt : S128x128.Idx → EReal) (n : Fin 100000) (k : Fin 128) : EReal :=
  ∑ t : Fin 128, x (ix2 n t) * Wt (ix2 t k)

/-- The factor of row n: the reciprocal square root of its degree. -/
def Df (ei : IVec S2x640000 32) (n : Fin 100000) : EReal := KHost.dinv (F := Ideal) ei (ix1 n)

/-- The updates landing on entry (p, q). -/
def Lf (ei : IVec S2x640000 32) (p : Fin 100000) (q : Fin 128) : Finset S740000x128.Idx :=
  Cert.LibLanding.landing scatter_S100000x128_S740000x1_S740000x128_1_0_0_1 (KHost.col (KHost.dstRaw ei)) (ix2 p q)

/-- The source row of update j: the row the wrapped source table names at j's update row. -/
def sJf (ei : IVec S2x640000 32) (j : S740000x128.Idx) : Fin 100000 :=
  Cert.LibRowTable.srcRow 100000 (by decide) (KTables.wrapWord (KHost.srcRaw ei (ix1 (j 0))))

/-- The column of update j. -/
def kJf (j : S740000x128.Idx) : Fin 128 := j 1

/-- A vector's entry q. -/
def vec (v : S128.Idx → EReal) (q : Fin 128) : EReal := v (ix1 q)

/-- The node count as the program's float word, and the word under the root. -/
def cN : EReal := Ideal.ofBits .f32 0x47C35000#32
def eps : EReal := Ideal.ofBits .f32 0x3727C5AC#32

/-! ## The host stages at an entry -/

/-- A vector as a one-row matrix, at (0, q): the vector at q. -/
theorem row1_apply (v : FVec Ideal S128 .f32) (q : Fin 128) : KHost.row1 (F := Ideal) v (ix2 (0 : Fin 1) q) = v (ix1 q) := by
  unfold KHost.row1
  exact shapeCast_a_1a_apply v _ (0 : Fin 1) q

/-- The factors as a one-column matrix, at (n, 0): the factor of row n. -/
theorem dinv2_apply (ei : IVec S2x640000 32) (n : Fin 100000) :
    KHost.dinv2 (F := Ideal) ei (ix2 n (0 : Fin 1)) = Df ei n := by
  unfold KHost.dinv2 Df
  exact Cert.LibLayout.shapeCast_a_a1_apply _ _ n (0 : Fin 1)

/-- A column total over the node count, at (0, q). -/
theorem overN_apply (s : FVec Ideal S1x128 .f32) (q : Fin 128) :
    KHost.overN (F := Ideal) s (ix2 (0 : Fin 1) q) = Ideal.div (s (ix2 (0 : Fin 1) q)) cN := rfl

/-- The clamped variance at (0, q). -/
theorem varClamped_apply (s sq : FVec Ideal S1x128 .f32) (q : Fin 128) :
    KHost.varClamped (F := Ideal) s sq (ix2 (0 : Fin 1) q)
      = max (Ideal.div (sq (ix2 (0 : Fin 1) q)) cN
          - Ideal.div (s (ix2 (0 : Fin 1) q)) cN * Ideal.div (s (ix2 (0 : Fin 1) q)) cN) 0 := by
  show max (Ideal.div (sq (ix2 (0 : Fin 1) q)) cN
          - Ideal.div (s (ix2 (0 : Fin 1) q)) cN * Ideal.div (s (ix2 (0 : Fin 1) q)) cN) (Ideal.ofBits .f32 0x00000000#32) = _
  rw [Ideal.ofBits_zero_f32]

/-- The program's dimension record of the row gather is the row-table gather of a matrix. -/
theorem rowGather_rec :
    gather_S100000x128_S740000x1_S740000x128_1_0_n_n_0_1_1128
      = Cert.LibRowTable.gatherRows 100000 128 740000 gather_S100000x128_S740000x1_S740000x128_1_0_n_n_0_1_1128.wf := rfl

/-- The gathered rows at update (e, k): the operand's row named by the wrapped source table at e, column k. -/
theorem gathered_apply (hs : S100000x128.Idx → EReal) (ei : IVec S2x640000 32) (e : Fin 740000) (k : Fin 128) :
    Host.gather gather_S100000x128_S740000x1_S740000x128_1_0_n_n_0_1_1128 hs (KHost.col (KHost.wrapTab (KHost.srcRaw ei)))
        (ix2 e k)
      = hs (ix2 (Cert.LibRowTable.srcRow 100000 (by decide) (KTables.wrapWord (KHost.srcRaw ei (ix1 e)))) k) := by
  rw [rowGather_rec]
  refine (Cert.LibRowTable.gatherRows_apply (by decide) _ hs _ e k).trans ?_
  rw [KTables.col_apply, KTables.wrapTab_apply]

/-- The same at any update index j. -/
theorem gathered_apply' (hs : S100000x128.Idx → EReal) (ei : IVec S2x640000 32) (j : S740000x128.Idx) :
    Host.gather gather_S100000x128_S740000x1_S740000x128_1_0_n_n_0_1_1128 hs (KHost.col (KHost.wrapTab (KHost.srcRaw ei))) j
      = hs (ix2 (sJf ei j) (kJf j)) := by
  obtain ⟨e, k, rfl⟩ : ∃ (e : Fin 740000) (k : Fin 128), j = ix2 e k := ⟨j 0, j 1, eq_ix2 j⟩
  exact gathered_apply hs ei e k

/-- The aggregate at (p, q): zero plus, for every update landing there, the gathered row's entry. -/
theorem aggRaw_apply (hs : FVec Ideal S100000x128 .f32) (ei : IVec S2x640000 32) (p : Fin 100000) (q : Fin 128) :
    KHost.aggRaw (F := Ideal) hs ei (ix2 p q) = 0 + ∑ j ∈ Lf ei p q, hs (ix2 (sJf ei j) (kJf j)) := by
  unfold KHost.aggRaw Lf
  refine (Cert.LibLanding.scatterAdd_apply _ _ _ _ (ix2 p q)).trans ?_
  refine congrArg₂ (· + ·) Ideal.ofBits_zero_f32 (Finset.sum_congr rfl fun j _ => gathered_apply' hs ei j)

/-! ## Through the three regions -/

section Run

variable (m : (ℓ : Loc nD τ sig) → Buf (Elt Ideal) ℓ) (ρ : Dev nD → PrngReg)

/-- The scaled product the first region leaves, at (n, k): the transformed row's entry times the row's factor. -/
theorem hs_apply (c : Dev nD) (n : Fin 100000) (k : Fin 128) :
    (W2 m ρ c (Proc.devRef .tc main_v10) : S100000x128.Idx → EReal) (ix2 n k)
      = Hf (m ((c : Thread nD τ).loc main_arg0)) (m ((c : Thread nD τ).loc main_arg2)) n k
          * Df (m ((c : Thread nD τ).loc main_arg1)) n := by
  refine (congrFun (W2_arr m ρ c 3) (ix2 n k)).trans ?_
  refine (KRegion0.arr_apply (V1 m ρ) c n k).trans ?_
  rw [KHost.V1_arg0 m ρ c, KHost.V1_arg2 m ρ c, KHost.V1_v9 m ρ c]
  unfold KRegion0.G0 Hf
  rw [dinv2_apply]

/-- The rectified rows the middle and the last region both compute, at (p, q): the abstract layer's. -/
theorem rowRelu_V3 (c : Dev nD) (p : Fin 100000) (q : Fin 128) :
    KRegion1.rowRelu (V3 m ρ) c p q
      = Cert.GcnSpec.actK (Df (m ((c : Thread nD τ).loc main_arg1)))
          (Hf (m ((c : Thread nD τ).loc main_arg0)) (m ((c : Thread nD τ).loc main_arg2)))
          (Lf (m ((c : Thread nD τ).loc main_arg1))) (sJf (m ((c : Thread nD τ).loc main_arg1))) kJf
          (vec (m ((c : Thread nD τ).loc main_arg3))) p q := by
  unfold KRegion1.rowRelu KRegion1.aggArr KRegion1.scaleCol KRegion1.biasRow Cert.GcnSpec.actK Cert.GcnSpec.aggK
  rw [KHost.V3_v28 m ρ c, KHost.V3_v9 m ρ c, KHost.V3_v29 m ρ c, aggRaw_apply, dinv2_apply, row1_apply]
  refine congrArg₂ max (congrArg₂ (· + ·) (congrArg₂ (· * ·) (congrArg₂ (· + ·) rfl
    (Finset.sum_congr rfl fun j _ => hs_apply m ρ c _ _)) rfl) rfl) rfl

/-- The two column totals the middle region leaves, at lane q. -/
theorem sum3_apply (c : Dev nD) (q : Fin 128) :
    (W4 m ρ c (Proc.devRef .tc main_v30_0) : S1x128.Idx → EReal) (ix2 (0 : Fin 1) q)
      = ∑ p : Fin 100000, KRegion1.rowRelu (V3 m ρ) c p q :=
  (congrFun (W4_arr m ρ c 3) (ix2 (0 : Fin 1) q)).trans (KRegion1.sum_out (V3 m ρ) c q)

theorem sum4_apply (c : Dev nD) (q : Fin 128) :
    (W4 m ρ c (Proc.devRef .tc main_v30_1) : S1x128.Idx → EReal) (ix2 (0 : Fin 1) q)
      = ∑ p : Fin 100000, KRegion1.rowRelu (V3 m ρ) c p q * KRegion1.rowRelu (V3 m ρ) c p q :=
  (congrFun (W4_arr m ρ c 4) (ix2 (0 : Fin 1) q)).trans (KRegion1.sumsq_out (V3 m ρ) c q)

/-- The result array at (p, q) is the first spelling of the layer at (p, q). -/
theorem out_apply (c : Dev nD) (p : Fin 100000) (q : Fin 128) :
    (W6 m ρ c (Proc.devRef .tc main_v41) : S100000x128.Idx → EReal) (ix2 p q)
      = Cert.GcnSpec.outK (Df (m ((c : Thread nD τ).loc main_arg1)))
          (Hf (m ((c : Thread nD τ).loc main_arg0)) (m ((c : Thread nD τ).loc main_arg2)))
          (Lf (m ((c : Thread nD τ).loc main_arg1))) (sJf (m ((c : Thread nD τ).loc main_arg1))) kJf
          (vec (m ((c : Thread nD τ).loc main_arg3))) (vec (m ((c : Thread nD τ).loc main_arg4)))
          (vec (m ((c : Thread nD τ).loc main_arg5))) cN eps p q := by
  refine (congrFun (W6_arr m ρ c 7) (ix2 p q)).trans ?_
  refine (KRegion2.arr_apply (V5 m ρ) c p q).trans ?_
  rw [KRegion2.G2_zero]
  have e9 : V5 m ρ c main_v9 = V3 m ρ c main_v9 := (KHost.V5_v9 m ρ c).trans (KHost.V3_v9 m ρ c).symm
  have e29 : V5 m ρ c main_v29 = V3 m ρ c main_v29 := (KHost.V5_v29 m ρ c).trans (KHost.V3_v29 m ρ c).symm
  have hs3 := sum3_apply m ρ c q
  have hs4 := sum4_apply m ρ c q
  have hact : ∀ p', KRegion1.rowRelu (V3 m ρ) c p' q = _ := fun p' => rowRelu_V3 m ρ c p' q
  unfold Cert.GcnSpec.outK Cert.GcnSpec.normK
  refine congrArg₂ (· + ·) (congrArg₂ (· * ·) (congrArg₂ (· * ·) ?g (congrArg₂ (· - ·) ?r ?mean))
    (congrArg Ideal.rsqrt (congrArg₂ (· + ·) ?var rfl))) ?beta
  case g => exact (congrFun (KHost.V5_v39 m ρ c) (ix2 (0 : Fin 1) q)).trans (row1_apply _ q)
  case beta => exact (congrFun (KHost.V5_v40 m ρ c) (ix2 (0 : Fin 1) q)).trans (row1_apply _ q)
  case r =>
    refine Eq.trans ?_ (rowRelu_V3 m ρ c p q)
    exact congrArg₂ max (congrArg₂ (· + ·) (congrArg₂ (· * ·) (congrFun (KHost.V5_v28 m ρ c) (ix2 p q))
      (congrFun e9 (ix2 p (0 : Fin 1)))) (congrFun e29 (ix2 (0 : Fin 1) q))) rfl
  case mean =>
    refine (congrFun (KHost.V5_v32 m ρ c) (ix2 (0 : Fin 1) q)).trans ?_
    refine (overN_apply _ q).trans ?_
    unfold Cert.GcnSpec.meanK
    rw [hs3]
    exact congrArg (fun s => Ideal.div s cN) (Finset.sum_congr rfl fun p' _ => hact p')
  case var =>
    refine (congrFun (KHost.V5_v38 m ρ c) (ix2 (0 : Fin 1) q)).trans ?_
    refine (varClamped_apply _ _ q).trans ?_
    unfold Cert.GcnSpec.varK Cert.GcnSpec.meanK
    rw [hs3, hs4]
    refine congrArg₂ max (congrArg₂ (· - ·)
      (congrArg (fun s => Ideal.div s cN) (Finset.sum_congr rfl fun p' _ => congrArg₂ (· * ·) (hact p') (hact p')))
      (congrArg₂ (· * ·) (congrArg (fun s => Ideal.div s cN) (Finset.sum_congr rfl fun p' _ => hact p'))
        (congrArg (fun s => Ideal.div s cN) (Finset.sum_congr rfl fun p' _ => hact p')))) rfl

end Run

end Cert.KernelIdeal.KEntry

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.RefEntry.lean ====
import proofs.«178751_j4887672783235_2_alg».proof.Proof.RefRunA
import proofs.«178751_j4887672783235_2_alg».proof.Proof.GcnSpec
import proofs.«178751_j4887672783235_2_alg».proof.Proof.LibScaleMoments
import proofs.«178751_j4887672783235_2_alg».proof.Proof.KTables
import proofs.«178751_j4887672783235_2_alg».proof.Proof.LibRowTable
import proofs.«178751_j4887672783235_2_alg».proof.Proof.LibLanding
import proofs.«178751_j4887672783235_2_alg».proof.Proof.LibMatmulRows
import proofs.«178751_j4887672783235_2_alg».proof.Proof.LibBiasRows
import Idealize.ShloMosaic.PureOps.Ideal.Laws
import Idealize.ShloMosaic.Lib.IdealHost
import Idealize.ShloMosaic.Lib.Pipeline.Value
import Idealize.ShloMosaic.Lib.ValueIdx

/-! # The reference's result at an entry

The reference computes one graph-convolution layer followed by a batch normalisation over the node axis.  This file
reads its result at an entry (p, q) and finds the second spelling of the abstract layer:

* the transformed rows H n k = sum over t of x(n, t) * W(t, k);
* the factor D n of a node: the inverse square root of its degree;
* an edge's message at column k: H (source row) k times the product of the two factors of its ends, where the row a
  table word names is the word counted from the end when negative, read signed and clamped to the last row;
* the aggregate at (p, q): zero plus the sum of the messages of the updates that land on (p, q), plus the bias b q,
  then the maximum with zero;
* the column mean: (zero plus the column sum) over c, c the word of 100000; the column variance: (zero plus the sum of
  the squared deviations from that mean) over c minus zero, which is c, and c is positive, so the guarded quotient is
  the quotient; the result ((g q * (r - mean)) * rsqrt (var + ε)) + β q.

Every step is first stated over arbitrary arrays and tables, where a layout operation, a gather, the accumulating
scatter, a column sum or a pointwise operation is read at one entry; the reference's own stages are put in last. -/

noncomputable section

namespace Cert.ReferenceIdeal.RefEntry

open Cert.ReferenceIdeal Cert.ReferenceIdeal.Gen Cert.ReferenceIdeal.RefRun
open Idealize.ShloMosaic Idealize.ShloMosaic.ValueIdx
open scoped BigOperators

/-- The divisor: the single-precision word of 100000. -/
def cN : EReal := Ideal.ofBits .f32 0x47C35000#32
/-- The word added under the root, kept as a word. -/
def eps : EReal := Ideal.ofBits .f32 0x3727C5AC#32
/-- A vector of 128 entries as a function of the column. -/
def vec (v : S128.Idx → EReal) (q : Fin 128) : EReal := v (ix1 q)

/-! ## Layout steps -/

/-- A vector laid along the 100000 rows, at (p, q): the vector at q. -/
theorem rowBcast_apply {α : Type} (v : S128.Idx → α) (p : Fin 100000) (q : Fin 128) : rowBcast v (ix2 p q) = v (ix1 q) := by
  unfold rowBcast
  exact Cert.LibBiasRows.bias_host (by decide) v _ _ p q

/-- A vector as one row, at (0, q): the vector at q. -/
theorem row1_apply {α : Type} (v : S128.Idx → α) (h : S128.BroadcastsInDim S1x128 (![1] : Fin 1 → Fin 2)) (q : Fin 128) :
    broadcastInDim S1x128 ![1] h v (ix2 (0 : Fin 1) q) = v (ix1 q) := by
  refine broadcastInDim_apply _ h v (ix2 (0 : Fin 1) q) (ix1 q) fun a => ?_
  match a with
  | ⟨0, _⟩ => show q.val = if (128 : ℕ) = 1 then 0 else q.val; rw [if_neg (by decide)]

/-- One row laid along the 100000 rows, at (p, q): the row at (0, q). -/
theorem rows_apply {α : Type} (v : S1x128.Idx → α) (h : S1x128.BroadcastsInDim S100000x128 (![0, 1] : Fin 2 → Fin 2))
    (p : Fin 100000) (q : Fin 128) :
    broadcastInDim S100000x128 ![0, 1] h v (ix2 p q) = v (ix2 (0 : Fin 1) q) := by
  refine broadcastInDim_apply _ h v (ix2 p q) (ix2 (0 : Fin 1) q) fun a => ?_
  match a with
  | ⟨0, _⟩ => show (0 : ℕ) = if (1 : ℕ) = 1 then 0 else p.val; rw [if_pos rfl]
  | ⟨1, _⟩ => show q.val = if (128 : ℕ) = 1 then 0 else q.val; rw [if_neg (by decide)]

/-! ## Column sums -/

/-- Over column q, the index with row k put back on the summed axis is (k, q). -/
theorem lift_col (h : S100000x128.Reduces [0] S128) (q : Fin 128) (k : Fin 100000) : h.lift (ix1 q) k = ix2 k q := by
  funext c
  refine Fin.ext ?_
  match c with
  | ⟨0, _⟩ => rfl
  | ⟨1, _⟩ => rfl

/-- A column sum from the zero word, at q: zero plus the sum over the rows p of the entries (p, q). -/
theorem reduce_apply (v : FVec Ideal S100000x128 .f32) (h' : S100000x128.ReducesTo [0] S128) (hu : 0 < S_.numel) (q : Fin 128) :
    Host.reduceAdd v (constant (F := Ideal) S_ .f32 0x00000000#32) h' hu (ix1 q) = 0 + ∑ p : Fin 100000, v (ix2 p q) := by
  have hR : S100000x128.Reduces [0] S128 := by decide
  refine (Ideal.hostReduceAdd_single h' hR v _ (ix1 q)).trans ?_
  exact congrArg₂ (fun (x y : EReal) => x + y) Ideal.ofBits_zero_f32
    (Finset.sum_congr rfl fun k _ => congrArg v (lift_col hR q k))

/-! ## Column statistics -/

/-- The column mean at q. -/
theorem colMean_apply (r : FVec Ideal S100000x128 .f32) (q : Fin 128) :
    colMean r (ix1 q) = Cert.GcnSpec.meanR cN (fun p q => r (ix2 p q)) q := by
  unfold colMean colSum Cert.GcnSpec.meanR
  exact congrArg₂ Ideal.div (reduce_apply r _ _ q) (broadcastInDim_scalar_apply _ _ _)

/-- The same mean computed on one row of 128, at (0, q). -/
theorem meanRow_apply (r : FVec Ideal S100000x128 .f32) (q : Fin 128) :
    meanRow r (ix2 (0 : Fin 1) q) = Cert.GcnSpec.meanR cN (fun p q => r (ix2 p q)) q := by
  unfold meanRow colSum Cert.GcnSpec.meanR
  exact congrArg₂ Ideal.div ((row1_apply _ _ q).trans (reduce_apply r _ _ q)) (broadcastInDim_scalar_apply _ _ _)

/-- An entry minus its column's mean. -/
theorem centred_apply (r : FVec Ideal S100000x128 .f32) (p : Fin 100000) (q : Fin 128) :
    centred r (ix2 p q) = r (ix2 p q) - Cert.GcnSpec.meanR cN (fun p q => r (ix2 p q)) q := by
  unfold centred
  exact congrArg₂ (fun (x y : EReal) => x - y) rfl ((rows_apply _ _ p q).trans (meanRow_apply r q))

/-- The squared deviation of an entry from its column's mean. -/
theorem sqDev_apply (r : FVec Ideal S100000x128 .f32) (p : Fin 100000) (q : Fin 128) :
    sqDev r (ix2 p q) = (r (ix2 p q) - Cert.GcnSpec.meanR cN (fun p q => r (ix2 p q)) q)
      * (r (ix2 p q) - Cert.GcnSpec.meanR cN (fun p q => r (ix2 p q)) q) := by
  unfold sqDev
  exact congrArg₂ (fun (x y : EReal) => x * y) (centred_apply r p q) (centred_apply r p q)

/-- The variance's divisor is c: the integer zero converted is 0, and c - 0 = c on the extended reals. -/
theorem varDivisor_eq (j : S_.Idx) : varDivisor (F := Ideal) j = cN := by
  show Ideal.ofBits .f32 0x47C35000#32 - (((0#32 : BitVec 32).toInt : ℝ) : EReal) = cN
  rw [BitVec.toInt_zero, Int.cast_zero, EReal.coe_zero, sub_zero]
  rfl

/-- c is positive: it is the real number 100000. -/
theorem cN_pos : (0 : EReal) < cN := by
  unfold cN
  rw [Cert.LibScaleMoments.ofBits_100000]
  exact_mod_cast (by norm_num : (0 : ℝ) < 100000)

/-- So the guard, that the divisor is greater than zero, is the bit 1. -/
theorem varCond : cmpf .ogt (varDivisor (F := Ideal)) (constant (F := Ideal) S_ .f32 0x00000000#32) ix0 = 1#1 := by
  show BitVec.ofBool (decide (Ideal.ofBits .f32 0x00000000#32 < varDivisor (F := Ideal) ix0)) = 1#1
  rw [varDivisor_eq, Ideal.ofBits_zero_f32, decide_eq_true cN_pos]
  rfl

/-- The guarded quotient at q: the mean of the squared deviations. -/
theorem varQuot_apply (r : FVec Ideal S100000x128 .f32) (q : Fin 128) :
    varQuot r (ix1 q) = Cert.GcnSpec.varR cN (fun p q => r (ix2 p q)) q := by
  unfold varQuot Cert.GcnSpec.varR
  refine congrArg₂ Ideal.div ((reduce_apply (sqDev r) _ _ q).trans ?_)
    ((broadcastInDim_scalar_apply _ _ _).trans (varDivisor_eq ix0))
  exact congrArg (fun y : EReal => 0 + y) (Finset.sum_congr rfl fun p _ => sqDev_apply r p q)

/-- The column variance at q: the guard holds, so the select takes the quotient. -/
theorem colVar_apply (r : FVec Ideal S100000x128 .f32) (q : Fin 128) :
    colVar r (ix1 q) = Cert.GcnSpec.varR cN (fun p q => r (ix2 p q)) q := by
  unfold colVar
  rw [select_apply, broadcastInDim_scalar_apply, varCond, select_one]
  exact varQuot_apply r q

/-! ## The normalisation -/

/-- The normalisation of any array r at (p, q), in the abstract layer's words. -/
theorem bn_apply (r : FVec Ideal S100000x128 .f32) (g β : FVec Ideal S128 .f32) (p : Fin 100000) (q : Fin 128) :
    bn r g β (ix2 p q) = Cert.GcnSpec.normR (vec g) (vec β) cN eps (fun p q => r (ix2 p q)) p q := by
  unfold bn Cert.GcnSpec.normR
  exact congrArg₂ (fun (x y : EReal) => x + y)
    (congrArg₂ (fun (x y : EReal) => x * y)
      (congrArg₂ (fun (x y : EReal) => x * y) (rowBcast_apply g p q)
        (congrArg₂ (fun (x y : EReal) => x - y) rfl ((rowBcast_apply _ p q).trans (colMean_apply r q))))
      ((rowBcast_apply _ p q).trans
        (congrArg Ideal.rsqrt (congrArg₂ (fun (x y : EReal) => x + y) (colVar_apply r q) (broadcastInDim_scalar_apply _ _ _)))))
    (rowBcast_apply β p q)

/-! ## The edge tables at an entry -/

/-- A table as a one-column matrix, at (e, 0): the table at e. -/
theorem col_apply {α : Type} (t : S740000.Idx → α) (e : Fin 740000) : col t (ix2 e (0 : Fin 1)) = t (ix1 e) := by
  unfold col
  refine broadcastInDim_apply _ _ t _ (ix1 e) fun a => ?_
  obtain rfl : a = 0 := Subsingleton.elim _ _
  rfl

/-- The wrapped table at an entry is the wrap of the word there. -/
theorem wrapIdx_apply (t : IVec S740000 32) (i : S740000.Idx) :
    wrapIdx t i = Cert.KernelIdeal.KTables.wrapWord (t i) := rfl

/-- The wrapped table as a column, at (e, 0). -/
theorem wrapCol_apply (t : IVec S740000 32) (e : Fin 740000) :
    col (wrapIdx t) (ix2 e (0 : Fin 1)) = Cert.KernelIdeal.KTables.wrapWord (t (ix1 e)) :=
  (col_apply (wrapIdx t) e).trans (wrapIdx_apply t (ix1 e))

/-- A one-column matrix laid along the 128 columns, at (e, k): the column at (e, 0). -/
theorem bcastCols_apply {α : Type} (v : S740000x1.Idx → α) (h : S740000x1.BroadcastsInDim S740000x128 (![0, 1] : Fin 2 → Fin 2))
    (e : Fin 740000) (k : Fin 128) :
    broadcastInDim S740000x128 ![0, 1] h v (ix2 e k) = v (ix2 e (0 : Fin 1)) := by
  refine broadcastInDim_apply _ h v (ix2 e k) (ix2 e (0 : Fin 1)) fun a => ?_
  match a with
  | ⟨0, _⟩ => show e.val = if (740000 : ℕ) = 1 then 0 else e.val; rw [if_neg (by decide)]
  | ⟨1, _⟩ => show (0 : ℕ) = if (1 : ℕ) = 1 then 0 else k.val; rw [if_pos rfl]

/-- The row a gather reads for the table word w, after the wrap. -/
def rowOf (w : BitVec 32) : Fin 100000 :=
  Cert.LibRowTable.srcRow 100000 (by decide) (Cert.KernelIdeal.KTables.wrapWord w)

/-- The reference's vector gather has the dimension numbers of a row gather of a vector. -/
theorem gatherVecRec_eq : gather_S100000_S740000x1_S740000_n_0_n_n_0_1_1
    = Cert.LibRowTable.gatherVec 100000 740000 gather_S100000_S740000x1_S740000_n_0_n_n_0_1_1_wf := rfl

/-- The reference's matrix gather has the dimension numbers of a row gather of a matrix. -/
theorem gatherRowsRec_eq : gather_S100000x128_S740000x1_S740000x128_1_0_n_n_0_1_1128
    = Cert.LibRowTable.gatherRows 100000 128 740000 gather_S100000x128_S740000x1_S740000x128_1_0_n_n_0_1_1128_wf := rfl

/-- A vector gathered by a wrapped table, at e: the vector at the row the table's word names. -/
theorem gatherTab_apply {α : Type} (d : S100000.Idx → α) (t : IVec S740000 32) (e : Fin 740000) :
    Host.gather gather_S100000_S740000x1_S740000_n_0_n_n_0_1_1 d (col (wrapIdx t)) (ix1 e) = d (ix1 (rowOf (t (ix1 e)))) := by
  rw [gatherVecRec_eq, Cert.LibRowTable.gatherVec_apply (by decide : 0 < 100000), wrapCol_apply]
  rfl

/-- A matrix whose rows are gathered by a wrapped table, at (e, k): the matrix at (the row the word names, k). -/
theorem gatherRowsTab_apply {α : Type} (m : S100000x128.Idx → α) (t : IVec S740000 32) (e : Fin 740000) (k : Fin 128) :
    Host.gather gather_S100000x128_S740000x1_S740000x128_1_0_n_n_0_1_1128 m (col (wrapIdx t)) (ix2 e k)
      = m (ix2 (rowOf (t (ix1 e))) k) := by
  rw [gatherRowsRec_eq, Cert.LibRowTable.gatherRows_apply (by decide : 0 < 100000), wrapCol_apply]
  rfl

/-- The product of two such gathers of one vector, at e. -/
theorem normOf (d : FVec Ideal S100000 .f32) (s t : IVec S740000 32) (e : Fin 740000) :
    mulf (Host.gather gather_S100000_S740000x1_S740000_n_0_n_n_0_1_1 d (col (wrapIdx s)))
        (Host.gather gather_S100000_S740000x1_S740000_n_0_n_n_0_1_1 d (col (wrapIdx t))) (ix1 e)
      = d (ix1 (rowOf (s (ix1 e)))) * d (ix1 (rowOf (t (ix1 e)))) := by
  rw [mulf_apply, gatherTab_apply, gatherTab_apply]

/-- A gathered matrix times a per-row weight laid along the columns, at (e, k). -/
theorem msgOf (m : FVec Ideal S100000x128 .f32) (nv : FVec Ideal S740000 .f32) (s : IVec S740000 32)
    (hb : S740000x1.BroadcastsInDim S740000x128 (![0, 1] : Fin 2 → Fin 2)) (e : Fin 740000) (k : Fin 128) :
    mulf (Host.gather gather_S100000x128_S740000x1_S740000x128_1_0_n_n_0_1_1128 m (col (wrapIdx s)))
        (broadcastInDim S740000x128 ![0, 1] hb (col nv)) (ix2 e k)
      = m (ix2 (rowOf (s (ix1 e))) k) * nv (ix1 e) := by
  rw [mulf_apply, gatherRowsTab_apply, bcastCols_apply, col_apply]

/-- A matrix accumulated from zero by a scatter, plus a row laid along the rows, at (p, q). -/
theorem aggOf (idx : IVec S740000x1 32) (upd : FVec Ideal S740000x128 .f32) (bv : FVec Ideal S128 .f32)
    (hz : S_.BroadcastsInDim S100000x128 (![] : Fin 0 → Fin 2)) (p : Fin 100000) (q : Fin 128) :
    addf (Host.scatterAdd scatter_S100000x128_S740000x1_S740000x128_1_0_0_1
          (broadcastInDim S100000x128 ![] hz (constant (F := Ideal) S_ .f32 0x00000000#32)) idx upd) (rowBcast bv) (ix2 p q)
      = (0 + ∑ j ∈ Cert.LibLanding.landing scatter_S100000x128_S740000x1_S740000x128_1_0_0_1 idx (ix2 p q), upd j)
        + bv (ix1 q) := by
  rw [addf_apply, Cert.LibLanding.scatterAdd_apply, broadcastInDim_scalar_apply, rowBcast_apply, constant_apply,
    Ideal.ofBits_zero_f32]

/-- The rectifier at an entry. -/
theorem reluOf (r : FVec Ideal S100000x128 .f32) (p : Fin 100000) (q : Fin 128) : relu r (ix2 p q) = max (r (ix2 p q)) 0 := by
  unfold relu
  rw [maximumf_apply, broadcastInDim_scalar_apply, constant_apply, Ideal.ofBits_zero_f32]

/-! ## The data of the abstract layer -/

/-- The transformed rows x W at (n, k). -/
def Hf (x : S100000x128.Idx → EReal) (W : S128x128.Idx → EReal) (n : Fin 100000) (k : Fin 128) : EReal :=
  ∑ t : Fin 128, x (ix2 n t) * W (ix2 t k)

/-- The factor of node n: the inverse square root of its degree. -/
def Df (ei : IVec S2x640000 32) (n : Fin 100000) : EReal := dinv (F := Ideal) ei (ix1 n)

/-- The updates that land on entry (p, q) of the aggregate. -/
def Lf (ei : IVec S2x640000 32) (p : Fin 100000) (q : Fin 128) : Finset S740000x128.Idx :=
  Cert.LibLanding.landing scatter_S100000x128_S740000x1_S740000x128_1_0_0_1 (col (dstRaw ei)) (ix2 p q)

/-- The source row of update j. -/
def sJf (ei : IVec S2x640000 32) (j : S740000x128.Idx) : Fin 100000 :=
  Cert.LibRowTable.srcRow 100000 (by decide) (Cert.KernelIdeal.KTables.wrapWord (srcRaw ei (ix1 (j 0 : Fin 740000))))

/-- The row the wrapped destination word of update j names. -/
def dJf (ei : IVec S2x640000 32) (j : S740000x128.Idx) : Fin 100000 :=
  Cert.LibRowTable.srcRow 100000 (by decide) (Cert.KernelIdeal.KTables.wrapWord (dstRaw ei (ix1 (j 0 : Fin 740000))))

/-- The column of update j. -/
def kJf (j : S740000x128.Idx) : Fin 128 := j 1

theorem sJf_ix2 (ei : IVec S2x640000 32) (e : Fin 740000) (k : Fin 128) : sJf ei (ix2 e k) = rowOf (srcRaw ei (ix1 e)) := rfl
theorem dJf_ix2 (ei : IVec S2x640000 32) (e : Fin 740000) (k : Fin 128) : dJf ei (ix2 e k) = rowOf (dstRaw ei (ix1 e)) := rfl
theorem kJf_ix2 (e : Fin 740000) (k : Fin 128) : kJf (ix2 e k) = k := rfl

/-! ## Transformed rows, weights, messages -/

/-- The dimension record of the product x W. -/
abbrev DH := dot_S100000x128_S128x128_S100000x128_1_0_0_1_n_n

theorem hrank : DH.contr.rank = 1 := DH.rank_contr.trans rfl
theorem hsize : DH.contr.size ⟨0, by rw [hrank]; exact Nat.one_pos⟩ = 128 := (DH.size_contr 0 (by decide)).trans rfl
theorem hl0 (i : S100000x128.Idx) (s : DH.contr.Idx) : (DH.lhsIdx i s 0).val = (i 0).val := rfl
theorem hl1 (i : S100000x128.Idx) (s : DH.contr.Idx) : (DH.lhsIdx i s 1).val = (s ⟨0, by rw [hrank]; exact Nat.one_pos⟩).val :=
  DH.lhsIdx_val_of_single (cl := 1) rfl i s
theorem hr0 (i : S100000x128.Idx) (s : DH.contr.Idx) : (DH.rhsIdx i s 0).val = (s ⟨0, by rw [hrank]; exact Nat.one_pos⟩).val :=
  DH.rhsIdx_val_of_single (cr := 0) rfl i s
theorem hr1 (i : S100000x128.Idx) (s : DH.contr.Idx) : (DH.rhsIdx i s 1).val = (i 1).val := rfl

/-- The transformed rows at (n, k): the sum over t of x(n, t) * W(t, k). -/
theorem h_apply (x : FVec Ideal S100000x128 .f32) (W : FVec Ideal S128x128 .f32) (n : Fin 100000) (k : Fin 128) :
    h (F := Ideal) x W (ix2 n k) = Hf x W n k := by
  unfold h Hf
  exact Cert.LibMatmulRows.hostdot_rows DH hrank hsize hl0 hl1 hr0 hr1 x W n k

/-- The weight of edge e: the factors of its two ends, multiplied. -/
theorem norm_apply (ei : IVec S2x640000 32) (e : Fin 740000) :
    RefRun.norm (F := Ideal) ei (ix1 e) = Df ei (rowOf (srcRaw ei (ix1 e))) * Df ei (rowOf (dstRaw ei (ix1 e))) := by
  unfold RefRun.norm Df
  rw [normOf]

/-- The message of edge e at column k. -/
theorem msg_apply (x : FVec Ideal S100000x128 .f32) (ei : IVec S2x640000 32) (W : FVec Ideal S128x128 .f32)
    (e : Fin 740000) (k : Fin 128) :
    msg (F := Ideal) x ei W (ix2 e k)
      = Hf x W (rowOf (srcRaw ei (ix1 e))) k * (Df ei (rowOf (srcRaw ei (ix1 e))) * Df ei (rowOf (dstRaw ei (ix1 e)))) := by
  unfold msg
  rw [msgOf, h_apply, norm_apply]

/-- The message at any update index, in the abstract layer's words. -/
theorem msg_at (x : FVec Ideal S100000x128 .f32) (ei : IVec S2x640000 32) (W : FVec Ideal S128x128 .f32) (j : S740000x128.Idx) :
    msg (F := Ideal) x ei W j = Hf x W (sJf ei j) (kJf j) * (Df ei (sJf ei j) * Df ei (dJf ei j)) := by
  obtain ⟨e, k, rfl⟩ : ∃ (e : Fin 740000) (k : Fin 128), j = ix2 e k := ⟨j 0, j 1, eq_ix2 (n0 := 740000) (n1 := 128) j⟩
  rw [sJf_ix2, dJf_ix2, kJf_ix2]
  exact msg_apply x ei W e k

/-! ## The aggregate and the rectifier -/

/-- The aggregate at (p, q). -/
theorem agg_apply (x : FVec Ideal S100000x128 .f32) (ei : IVec S2x640000 32) (W : FVec Ideal S128x128 .f32)
    (b : FVec Ideal S128 .f32) (p : Fin 100000) (q : Fin 128) :
    agg (F := Ideal) x ei W b (ix2 p q)
      = Cert.GcnSpec.aggR (Df ei) (Hf x W) (Lf ei) (sJf ei) (dJf ei) kJf p q + vec b q := by
  unfold agg Cert.GcnSpec.aggR Lf vec
  rw [aggOf, Finset.sum_congr rfl fun j _ => msg_at x ei W j]

/-- The rectified aggregate at (p, q). -/
theorem act_apply (x : FVec Ideal S100000x128 .f32) (ei : IVec S2x640000 32) (W : FVec Ideal S128x128 .f32)
    (b : FVec Ideal S128 .f32) (p : Fin 100000) (q : Fin 128) :
    act (F := Ideal) x ei W b (ix2 p q)
      = Cert.GcnSpec.actR (Df ei) (Hf x W) (Lf ei) (sJf ei) (dJf ei) kJf (vec b) p q := by
  unfold act Cert.GcnSpec.actR
  rw [reluOf, agg_apply]

/-! ## The result -/

/-- The reference's result at (p, q) is the second spelling of the abstract layer. -/
theorem out_apply (x : FVec Ideal S100000x128 .f32) (ei : IVec S2x640000 32) (W : FVec Ideal S128x128 .f32)
    (b g β : FVec Ideal S128 .f32) (p : Fin 100000) (q : Fin 128) :
    out (F := Ideal) x ei W b g β (ix2 p q)
      = Cert.GcnSpec.outR (Df ei) (Hf x W) (Lf ei) (sJf ei) (dJf ei) kJf (vec b) (vec g) (vec β) cN eps p q := by
  unfold out Cert.GcnSpec.outR
  rw [bn_apply, show (fun p q => act (F := Ideal) x ei W b (ix2 p q))
      = Cert.GcnSpec.actR (Df ei) (Hf x W) (Lf ei) (sJf ei) (dJf ei) kJf (vec b)
    from funext fun p' => funext fun q' => act_apply x ei W b p' q']

end Cert.ReferenceIdeal.RefEntry
end
-- ==== Proof.Bridge.lean ====
/-
  The two programs' host stages are the same functions, and where an update of the aggregation lands.

  The idealized kernel program and the idealized reference each declare their shapes, their side conditions and their
  dimension records for themselves, with the same contents: a shape is the same literal on both sides, a side condition
  is a proposition (any two proofs of it are equal), a record is the same list of axis numbers. So the edge tables, the
  wrap of negative row numbers, a table as a column, the degree and its inverse square root are the same functions of
  the edge list whichever program's names they are written with, and the two programs' records of the row scatter
  and of the row gather are equal. Each equation below holds by unfolding the names; no array is evaluated.

  Then the landing of an update. An update (e, k) of the row scatter lands on (p, q) exactly when the destination
  table's word at e, read signed, is p (and k = q). Such a word is not negative, so the wrap leaves it alone, and the row
  a gather driven by the wrapped destination table reads at e is p itself.
-/
import proofs.«178751_j4887672783235_2_alg».proof.Proof.RefRunA
import proofs.«178751_j4887672783235_2_alg».proof.Proof.KHost
import proofs.«178751_j4887672783235_2_alg».proof.Proof.KTables
import proofs.«178751_j4887672783235_2_alg».proof.Proof.LibRowTable

noncomputable section

namespace Cert.Bridge

open Idealize.ShloMosaic Idealize.ShloMosaic.ValueIdx Cert.LibRowTable

/-! ## The same stages under the two programs' names -/

set_option maxHeartbeats 100000 in
/-- The source tables are the same function of the edge list. -/
theorem srcRaw_eq : Cert.ReferenceIdeal.RefRun.srcRaw = Cert.KernelIdeal.KHost.srcRaw := rfl

set_option maxHeartbeats 100000 in
/-- The destination tables are the same function of the edge list. -/
theorem dstRaw_eq : Cert.ReferenceIdeal.RefRun.dstRaw = Cert.KernelIdeal.KHost.dstRaw := rfl

set_option maxHeartbeats 100000 in
/-- The wrap of negative row numbers is the same function of a table. -/
theorem wrapIdx_eq : Cert.ReferenceIdeal.RefRun.wrapIdx = Cert.KernelIdeal.KHost.wrapTab := rfl

set_option maxHeartbeats 100000 in
/-- A table of words as a column is the same function of the table. -/
theorem col_eq : (Cert.ReferenceIdeal.RefRun.col : (Cert.ReferenceIdeal.S740000.Idx → BitVec 32) → Cert.ReferenceIdeal.S740000x1.Idx → BitVec 32)
    = Cert.KernelIdeal.KHost.col := rfl

set_option maxHeartbeats 100000 in
/-- The degrees are the same function of the edge list, for any float values. -/
theorem deg_eq {F : FTy → Type} [FloatOps F] : Cert.ReferenceIdeal.RefRun.deg (F := F) = Cert.KernelIdeal.KHost.deg (F := F) := rfl

set_option maxHeartbeats 100000 in
/-- The inverse square roots of the degrees are the same function of the edge list, for any float values. -/
theorem dinv_eq {F : FTy → Type} [FloatOps F] : Cert.ReferenceIdeal.RefRun.dinv (F := F) = Cert.KernelIdeal.KHost.dinv (F := F) := rfl

set_option maxHeartbeats 100000 in
/-- The two programs' records of the row scatter are equal. -/
theorem scatterRows_eq :
    Cert.ReferenceIdeal.scatter_S100000x128_S740000x1_S740000x128_1_0_0_1
      = Cert.KernelIdeal.scatter_S100000x128_S740000x1_S740000x128_1_0_0_1 := rfl

set_option maxHeartbeats 100000 in
/-- The two programs' records of the row gather are equal. -/
theorem gatherRows_eq :
    Cert.ReferenceIdeal.gather_S100000x128_S740000x1_S740000x128_1_0_n_n_0_1_1128
      = Cert.KernelIdeal.gather_S100000x128_S740000x1_S740000x128_1_0_n_n_0_1_1128 := rfl

/-! ## Where an update lands -/

/-- A table as a column, at (e, 0), is the table at e (the reference's spelling of the column, for any entries). -/
theorem col_apply {α : Type} (t : Cert.ReferenceIdeal.S740000.Idx → α) (e : Fin 740000) :
    Cert.ReferenceIdeal.RefRun.col t (ix2 e (0 : Fin 1)) = t (ix1 e) := by
  unfold Cert.ReferenceIdeal.RefRun.col
  refine broadcastInDim_apply _ _ t _ (ix1 e) fun a => ?_
  obtain rfl : a = 0 := Subsingleton.elim _ _
  rfl

/-- Where update j of the reference's row scatter, driven by the destination table as a column, lands on (p, q), the
    wrapped destination word at j's row names row p. -/
theorem dst_row_of_lands (ei : IVec Cert.ReferenceIdeal.S2x640000 32) (p : Fin 100000) (q : Fin 128)
    (j : Cert.ReferenceIdeal.S740000x128.Idx)
    (h : Cert.ReferenceIdeal.scatter_S100000x128_S740000x1_S740000x128_1_0_0_1.resultIdx? j
          (Cert.ReferenceIdeal.RefRun.col (Cert.ReferenceIdeal.RefRun.dstRaw ei)) = some (ix2 p q)) :
    srcRow 100000 (by decide) (Cert.KernelIdeal.KTables.wrapWord (Cert.ReferenceIdeal.RefRun.dstRaw ei (ix1 (j 0)))) = p := by
  obtain ⟨e, k, rfl⟩ : ∃ (e : Fin 740000) (k : Fin 128), j = ix2 e k := ⟨j 0, j 1, eq_ix2 j⟩
  have h' : (scatterRows 100000 128 740000 Cert.ReferenceIdeal.Gen.scatter_S100000x128_S740000x1_S740000x128_1_0_0_1_wf).resultIdx?
      (ix2 e k) (Cert.ReferenceIdeal.RefRun.col (Cert.ReferenceIdeal.RefRun.dstRaw ei)) = some (ix2 p q) := h
  have hl := (scatterRows_lands _ (Cert.ReferenceIdeal.RefRun.col (Cert.ReferenceIdeal.RefRun.dstRaw ei)) e k p q).mp h'
  have h1 : (Cert.ReferenceIdeal.RefRun.dstRaw ei (ix1 e)).toInt = (p.val : Int) :=
    (congrArg BitVec.toInt (col_apply (Cert.ReferenceIdeal.RefRun.dstRaw ei) e)).symm.trans hl.1
  exact Cert.KernelIdeal.KTables.srcRow_wrap_of_toInt _ p h1

/-- The same for the kernel program's record and its own spelling of the destination table as a column. -/
theorem dst_row_of_lands_kernel (ei : IVec Cert.KernelIdeal.S2x640000 32) (p : Fin 100000) (q : Fin 128)
    (j : Cert.KernelIdeal.S740000x128.Idx)
    (h : Cert.KernelIdeal.scatter_S100000x128_S740000x1_S740000x128_1_0_0_1.resultIdx? j
          (Cert.KernelIdeal.KHost.col (Cert.KernelIdeal.KHost.dstRaw ei)) = some (ix2 p q)) :
    srcRow 100000 (by decide) (Cert.KernelIdeal.KTables.wrapWord (Cert.KernelIdeal.KHost.dstRaw ei (ix1 (j 0)))) = p := by
  obtain ⟨e, k, rfl⟩ : ∃ (e : Fin 740000) (k : Fin 128), j = ix2 e k := ⟨j 0, j 1, eq_ix2 j⟩
  have h' : (scatterRows 100000 128 740000 Cert.KernelIdeal.Gen.scatter_S100000x128_S740000x1_S740000x128_1_0_0_1_wf).resultIdx?
      (ix2 e k) (Cert.KernelIdeal.KHost.col (Cert.KernelIdeal.KHost.dstRaw ei)) = some (ix2 p q) := h
  have hl := (scatterRows_lands _ (Cert.KernelIdeal.KHost.col (Cert.KernelIdeal.KHost.dstRaw ei)) e k p q).mp h'
  have h1 : (Cert.KernelIdeal.KHost.dstRaw ei (ix1 e)).toInt = (p.val : Int) :=
    (congrArg BitVec.toInt (Cert.KernelIdeal.KTables.col_apply (Cert.KernelIdeal.KHost.dstRaw ei) e)).symm.trans hl.1
  exact Cert.KernelIdeal.KTables.srcRow_wrap_of_toInt _ p h1

end Cert.Bridge

end
-- ==== Proof.KDegree.lean ====
/-
  The degree of every node is a count that is at least one.

  Node n's self loop is entry 640000 + n of the destination table and holds the word of n, so that update lands on
  row n: the set of updates landing on any row is not empty. The degree — zero plus one for every update landing on
  the row — is therefore a real number that is at least one, and its reciprocal square root is a real number.
-/
import proofs.«178751_j4887672783235_2_alg».proof.Proof.KTables
import proofs.«178751_j4887672783235_2_alg».proof.Proof.LibLanding

noncomputable section

namespace Cert.KernelIdeal.KTables

open Cert.KernelIdeal Cert.KernelIdeal.KHost Idealize.ShloMosaic Idealize.ShloMosaic.ValueIdx Cert.LibRowTable Cert.LibMoments
  Cert.LibLanding
open scoped BigOperators

/-- The reciprocal square root of (zero plus a sum of ones over a set that is not empty) is a real number. -/
theorem isR_rsqrt_count {ι : Type*} (S : Finset ι) (z : EReal) (f : ι → EReal) (hz : z = 0) (hf : ∀ j ∈ S, f j = 1)
    (hS : S.Nonempty) : IsR (Ideal.rsqrt (z + ∑ j ∈ S, f j)) := by
  obtain ⟨r, hr1, hr⟩ := Cert.LibScaleMoments.count_real S hS
  refine Cert.LibScaleMoments.isR_rsqrt_of_one_le r hr1 ?_
  rw [hz, Finset.sum_congr rfl hf]
  exact hr

/-- The program's dimension record of the degree scatter is the row-table scatter into a vector. -/
theorem degScatter_eq :
    scatter_S100000_S740000x1_S740000_n_0_0_1 = scatterVec 100000 740000 scatter_S100000_S740000x1_S740000_n_0_0_1.wf := rfl

/-- Node n's self loop lands on row n of the degree. -/
theorem loop_lands (ei : IVec S2x640000 32) (n : Fin 100000) :
    ix1 (⟨640000 + n.val, by have := n.isLt; omega⟩ : Fin 740000)
      ∈ landing scatter_S100000_S740000x1_S740000_n_0_0_1 (col (dstRaw ei)) (ix1 n) := by
  refine (mem_landing _ _ _ _).2 ?_
  rw [degScatter_eq]
  refine (scatterVec_lands _ (col (dstRaw ei)) _ n).2 ?_
  rw [col_apply, dstRaw_loop, toInt_ofNat_row]

/-- The host's reciprocal square root of any array, at an entry, is the exact reciprocal square root of the entry. -/
theorem hostRsqrt_apply {s : Shape} {φ : FTy} (x : FVec Ideal s φ) (i : s.Idx) : Host.rsqrt x i = Ideal.rsqrt (x i) := rfl

/-- The reciprocal square root of every node's degree is a real number. -/
theorem isR_dinv (ei : IVec S2x640000 32) (n : Fin 100000) : IsR (dinv (F := Ideal) ei (ix1 n)) := by
  unfold dinv deg
  rw [hostRsqrt_apply, scatterAdd_apply]
  exact isR_rsqrt_count _ _ _ ofBits_zero (fun j _ => ofBits_one) ⟨_, loop_lands ei n⟩

end Cert.KernelIdeal.KTables

end
-- ==== Proof.PreFinite.lean ====
/-
  From the precondition to real entries.

  The precondition says, array by array, that every entry's absolute value is below the f32 word of +inf, and joins
  the five answers by "and". On the extended reals the absolute value max x (-x) of either infinity is +inf itself,
  so an entry that passes the test is a real number. Only three of the five arrays are needed later: the features,
  the weights and the bias.
-/
import proofs.«178751_j4887672783235_2_alg».proof.Pre_finite_inputs
import proofs.«178751_j4887672783235_2_alg».proof.Proof.LibMoments
import Idealize.ShloMosaic.Lib.ReduceAll
import Idealize.ShloMosaic.Lib.Affine
import Idealize.ShloMosaic.Lib.ValueIdx
import Idealize.ShloMosaic.PureOps.Ideal.Laws

noncomputable section

namespace Cert.PreFinite

open Idealize.ShloMosaic Idealize.ShloMosaic.ValueIdx Cert.LibMoments Cert.Pre_finite_inputs

variable [Cert.Pre_finite_inputs.Facts]
open Cert.Pre_finite_inputs.Facts

/-- The f32 word 0x7F800000 is +inf. -/
theorem ofBits_inf : Ideal.ofBits .f32 0x7F800000#32 = ⊤ := by
  simp [Ideal.ofBits, Ideal.ieee]

/-- An extended real whose absolute value is below +inf is a real number. -/
theorem isR_of_abs_lt_top (x : EReal) (h : Ideal.cmp .olt (max x (-x)) ⊤ = 1#1) : IsR x := by
  induction x using EReal.rec with
  | bot => exact absurd h (by simp [Ideal.cmp])
  | coe r => exact ⟨r, rfl⟩
  | top => exact absurd h (by simp [Ideal.cmp])

instance : Subsingleton S_.Idx := ⟨fun a b => funext fun d => d.elim0⟩

/-- One array's test: if "every |entry| is below +inf" answers 1, every entry is a real number. -/
theorem isR_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : IsR (a i) := by
  have hi := Host.reduce_andi_all _ _ hr hu ix0 h i
  refine isR_of_abs_lt_top (a i) ?_
  rw [← ofBits_inf]
  exact hi

/-- The precondition gives real entries in the features, the weights and the bias. -/
theorem real_of_pre (x : FVec Ideal S100000x128 .f32) (ei : IVec S2x640000 32) (W : FVec Ideal S128x128 .f32)
    (b g β : FVec Ideal S128 .f32) (h : fn (F := Ideal) x ei W b g β = fun _ => 1#1) :
    (∀ i, IsR (x i)) ∧ (∀ i, IsR (W i)) ∧ (∀ i, IsR (b i)) := by
  have h0 := congrFun h ix0
  dsimp only [fn, fn_part1] at h0
  obtain ⟨h18, _⟩ := IntOp.andi_eq_one.1 h0
  obtain ⟨h13, _⟩ := IntOp.andi_eq_one.1 h18
  obtain ⟨h8, h12⟩ := IntOp.andi_eq_one.1 h13
  obtain ⟨h3, h7⟩ := IntOp.andi_eq_one.1 h8
  exact ⟨isR_of_all x _ _ _ h3, isR_of_all W _ _ _ h7, isR_of_all b _ _ _ h12⟩

end Cert.PreFinite

end
-- ==== Proof.GcnJoin.lean ====
/-
  The two spellings of the layer are one function, where the entries are real numbers.

  * The rectified aggregates agree: on the terms of entry (p, q) the second row of every term is p itself, so the
    second factor is the row's own factor D p, and a common real factor moves across a finite sum of real terms.
  * The rectified aggregate is then an array of real numbers (real transformed rows, real factors, real bias), so
    the column means agree (a sum started from zero is the sum) and the two variances agree: for real entries and
    the divisor 100000 = the number of rows, mean of squares minus squared mean is the mean squared deviation, which
    is not negative, so the clamp at zero does nothing.
-/
import proofs.«178751_j4887672783235_2_alg».proof.Proof.GcnSpec
import proofs.«178751_j4887672783235_2_alg».proof.Proof.LibScaleMoments

noncomputable section

namespace Cert.GcnSpec

open Idealize.ShloMosaic Cert.LibMoments Cert.LibScaleMoments
open scoped BigOperators

variable {ι : Type} (D : Fin 100000 → EReal) (H : Fin 100000 → Fin 128 → EReal)
  (L : Fin 100000 → Fin 128 → Finset ι) (sJ dJ : ι → Fin 100000) (kJ : ι → Fin 128)
  (b g β : Fin 128 → EReal) (c ε : EReal)

/-- The rectified aggregates of the two spellings agree. -/
theorem actK_eq_actR (hD : ∀ n, IsR (D n)) (hH : ∀ n k, IsR (H n k)) (hdJ : ∀ p q, ∀ j ∈ L p q, dJ j = p)
    (p : Fin 100000) (q : Fin 128) : actK D H L sJ kJ b p q = actR D H L sJ dJ kJ b p q := by
  unfold actK actR aggK aggR
  exact congrArg (fun z => max (z + b q) 0)
    (scale_after_eq_scale_before (L p q) (fun j => H (sJ j) (kJ j)) (fun j => D (sJ j)) (fun j => D (dJ j)) (D p)
      (fun j _ => hH _ _) (fun j _ => hD _) (hD p) (fun j hj => by rw [hdJ p q j hj]))

/-- The rectified aggregate is a real number. -/
theorem isR_actR (hD : ∀ n, IsR (D n)) (hH : ∀ n k, IsR (H n k)) (hb : ∀ q, IsR (b q)) (p : Fin 100000) (q : Fin 128) :
    IsR (actR D H L sJ dJ kJ b p q) := by
  unfold actR aggR
  exact ((IsR_zero.add (IsR.finset_sum _ _ fun j _ => (hH _ _).mul ((hD _).mul (hD _)))).add (hb q)).max IsR_zero

/-- For an array of real numbers and the divisor 100000 the two normalisations agree. -/
theorem normK_eq_normR (r : Fin 100000 → Fin 128 → EReal) (hr : ∀ p q, IsR (r p q)) (hc : c = ((100000 : ℝ) : EReal))
    (p : Fin 100000) (q : Fin 128) : normK g β c ε r p q = normR g β c ε r p q := by
  have hm : meanK c r q = meanR c r q := by unfold meanK meanR; rw [zero_add]
  have hv : varK c r q = varR c r q := by
    unfold varK varR
    rw [zero_add, ← hm]
    unfold meanK
    exact clamped_moments_eq 100000 (fun p => r p q) (fun p => hr p q) c 100000 hc (by norm_num) (by norm_num)
  unfold normK normR
  rw [hm, hv]

/-- The two spellings of the layer's output agree. -/
theorem outK_eq_outR (hD : ∀ n, IsR (D n)) (hH : ∀ n k, IsR (H n k)) (hb : ∀ q, IsR (b q))
    (hdJ : ∀ p q, ∀ j ∈ L p q, dJ j = p) (hc : c = ((100000 : ℝ) : EReal)) (p : Fin 100000) (q : Fin 128) :
    outK D H L sJ kJ b g β c ε p q = outR D H L sJ dJ kJ b g β c ε p q := by
  unfold outK outR
  have hact : actK D H L sJ kJ b = actR D H L sJ dJ kJ b :=
    funext fun p => funext fun q => actK_eq_actR D H L sJ dJ kJ b hD hH hdJ p q
  rw [hact]
  exact normK_eq_normR g β c ε _ (fun p q => isR_actR D H L sJ dJ kJ b hD hH hb p q) hc p q

end Cert.GcnSpec

end
-- ==== Proof.Final.lean ====
/-
  The two idealized programs compute one array.

  At an entry (p, q) the kernel program's result is the first spelling of the layer and the reference's the second
  (the two entry-level readings), over data that are the same on both sides: the two programs build their edge tables,
  degrees and landing sets by the same operations, and the transformed rows are one sum. The spellings agree where
  the entries are real numbers: the features, weights and bias are real by the precondition, the inverse square roots
  of the degrees because every node has its self loop, and at every update that lands on row p the wrapped destination
  row is p. The divisor word is the real number 100000, the number of rows.
-/
import proofs.«178751_j4887672783235_2_alg».proof.Defs
import proofs.«178751_j4887672783235_2_alg».proof.Proof.Gen.Kernel
import proofs.«178751_j4887672783235_2_alg».proof.Proof.Gen.Kernel.Frame
import proofs.«178751_j4887672783235_2_alg».proof.Proof.Gen.KernelIdeal
import proofs.«178751_j4887672783235_2_alg».proof.Proof.Gen.ReferenceIdeal
import proofs.«178751_j4887672783235_2_alg».proof.Proof.Gen.Pre_finite_inputs
import proofs.«178751_j4887672783235_2_alg».proof.Proof.KRun
import proofs.«178751_j4887672783235_2_alg».proof.Proof.RefRun
import proofs.«178751_j4887672783235_2_alg».proof.Proof.KEntry
import proofs.«178751_j4887672783235_2_alg».proof.Proof.RefEntry
import proofs.«178751_j4887672783235_2_alg».proof.Proof.Bridge
import proofs.«178751_j4887672783235_2_alg».proof.Proof.KDegree
import proofs.«178751_j4887672783235_2_alg».proof.Proof.PreFinite
import proofs.«178751_j4887672783235_2_alg».proof.Proof.GcnJoin

noncomputable section

namespace Cert.Final

open Idealize.ShloMosaic Idealize.ShloMosaic.ValueIdx Idealize.ShloMosaic.TcCoe Idealize.SL.Sem Cert.LibMoments
open Cert.KernelIdeal (nD τ sig)

/-! ## The two readings speak of the same data -/

theorem Df_eq : Cert.ReferenceIdeal.RefEntry.Df = Cert.KernelIdeal.KEntry.Df := by
  funext ei n
  unfold Cert.ReferenceIdeal.RefEntry.Df Cert.KernelIdeal.KEntry.Df
  exact congrFun (congrFun (Cert.Bridge.dinv_eq (F := Ideal)) ei) (ix1 n)

theorem Hf_eq : Cert.ReferenceIdeal.RefEntry.Hf = Cert.KernelIdeal.KEntry.Hf := rfl

theorem Lf_eq : Cert.ReferenceIdeal.RefEntry.Lf = Cert.KernelIdeal.KEntry.Lf := by
  funext ei p q
  unfold Cert.ReferenceIdeal.RefEntry.Lf Cert.KernelIdeal.KEntry.Lf
  rw [Cert.Bridge.scatterRows_eq, Cert.Bridge.col_eq, Cert.Bridge.dstRaw_eq]

theorem sJf_eq : Cert.ReferenceIdeal.RefEntry.sJf = Cert.KernelIdeal.KEntry.sJf := by
  funext ei j
  unfold Cert.ReferenceIdeal.RefEntry.sJf Cert.KernelIdeal.KEntry.sJf
  rw [Cert.Bridge.srcRaw_eq]

theorem kJf_eq : Cert.ReferenceIdeal.RefEntry.kJf = Cert.KernelIdeal.KEntry.kJf := rfl
theorem vec_eq : Cert.ReferenceIdeal.RefEntry.vec = Cert.KernelIdeal.KEntry.vec := rfl
theorem cN_eq : Cert.ReferenceIdeal.RefEntry.cN = Cert.KernelIdeal.KEntry.cN := rfl
theorem eps_eq : Cert.ReferenceIdeal.RefEntry.eps = Cert.KernelIdeal.KEntry.eps := rfl

/-- At every update that lands on row p the reference's wrapped destination row is p. -/
theorem dJf_of_mem (ei : IVec Cert.KernelIdeal.S2x640000 32) (p : Fin 100000) (q : Fin 128)
    (j : Cert.KernelIdeal.S740000x128.Idx) (hj : j ∈ Cert.KernelIdeal.KEntry.Lf ei p q) :
    Cert.ReferenceIdeal.RefEntry.dJf ei j = p := by
  unfold Cert.ReferenceIdeal.RefEntry.dJf
  rw [Cert.Bridge.dstRaw_eq]
  unfold Cert.KernelIdeal.KEntry.Lf at hj
  exact Cert.Bridge.dst_row_of_lands_kernel ei p q j ((Cert.LibLanding.mem_landing _ _ _ _).1 hj)

/-! ## The two results agree entry by entry -/

variable (m : (ℓ : Loc nD τ sig) → Buf (Elt Ideal) ℓ) (ρ : Dev nD → PrngReg)

theorem entry_eq (c : Dev nD)
    (hx : ∀ i, IsR ((m ((c : Thread nD τ).loc Cert.KernelIdeal.main_arg0) : Cert.KernelIdeal.S100000x128.Idx → EReal) i))
    (hW : ∀ i, IsR ((m ((c : Thread nD τ).loc Cert.KernelIdeal.main_arg2) : Cert.KernelIdeal.S128x128.Idx → EReal) i))
    (hb : ∀ i, IsR ((m ((c : Thread nD τ).loc Cert.KernelIdeal.main_arg3) : Cert.KernelIdeal.S128.Idx → EReal) i))
    (p : Fin 100000) (q : Fin 128) :
    Cert.ReferenceIdeal.RefRun.out (F := Ideal) (m ((c : Thread nD τ).loc Cert.KernelIdeal.main_arg0))
        (m ((c : Thread nD τ).loc Cert.KernelIdeal.main_arg1)) (m ((c : Thread nD τ).loc Cert.KernelIdeal.main_arg2))
        (m ((c : Thread nD τ).loc Cert.KernelIdeal.main_arg3)) (m ((c : Thread nD τ).loc Cert.KernelIdeal.main_arg4))
        (m ((c : Thread nD τ).loc Cert.KernelIdeal.main_arg5)) (ix2 p q)
      = (Cert.KernelIdeal.Gen.W6 m ρ c (Proc.devRef .tc Cert.KernelIdeal.main_v41) : Cert.KernelIdeal.S100000x128.Idx → EReal) (ix2 p q) := by
  rw [Cert.ReferenceIdeal.RefEntry.out_apply, Cert.KernelIdeal.KEntry.out_apply m ρ c p q,
    Df_eq, Hf_eq, Lf_eq, sJf_eq, kJf_eq, vec_eq, cN_eq, eps_eq]
  refine (Cert.GcnSpec.outK_eq_outR _ _ _ _ (Cert.ReferenceIdeal.RefEntry.dJf (m ((c : Thread nD τ).loc Cert.KernelIdeal.main_arg1)))
    _ _ _ _ _ _ ?_ ?_ ?_ ?_ ?_ p q).symm
  · exact fun n => Cert.KernelIdeal.KTables.isR_dinv _ n
  · exact fun n k => IsR.sum _ fun t => (hx _).mul (hW _)
  · exact fun q => hb _
  · exact fun p q j hj => dJf_of_mem _ p q j hj
  · exact Cert.LibScaleMoments.ofBits_100000

/-- Under the precondition the reference's result term of the kernel program's arguments is the kernel program's
    result array. -/
theorem result_eq (c : Dev nD)
    (h : Cert.Pre_finite_inputs.fn (F := Ideal) (m ((c.tc : Thread nD τ).loc Cert.KernelIdeal.main_arg0))
      (m ((c.tc : Thread nD τ).loc Cert.KernelIdeal.main_arg1)) (m ((c.tc : Thread nD τ).loc Cert.KernelIdeal.main_arg2))
      (m ((c.tc : Thread nD τ).loc Cert.KernelIdeal.main_arg3)) (m ((c.tc : Thread nD τ).loc Cert.KernelIdeal.main_arg4))
      (m ((c.tc : Thread nD τ).loc Cert.KernelIdeal.main_arg5)) = fun _ => 1#1) :
    Cert.ReferenceIdeal.RefRun.out (F := Ideal) (m ((c.tc : Thread nD τ).loc Cert.KernelIdeal.main_arg0))
        (m ((c.tc : Thread nD τ).loc Cert.KernelIdeal.main_arg1)) (m ((c.tc : Thread nD τ).loc Cert.KernelIdeal.main_arg2))
        (m ((c.tc : Thread nD τ).loc Cert.KernelIdeal.main_arg3)) (m ((c.tc : Thread nD τ).loc Cert.KernelIdeal.main_arg4))
        (m ((c.tc : Thread nD τ).loc Cert.KernelIdeal.main_arg5))
      = Cert.KernelIdeal.Gen.W6 m ρ c (Proc.devRef .tc Cert.KernelIdeal.main_v41) := by
  obtain ⟨hx, hW, hb⟩ := Cert.PreFinite.real_of_pre _ _ _ _ _ _ h
  funext i
  obtain ⟨p, q, rfl⟩ : ∃ (p : Fin 100000) (q : Fin 128), i = ix2 p q := ⟨i 0, i 1, eq_ix2 i⟩
  exact entry_eq m ρ c hx hW hb p q

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing: there is nothing to preserve. -/
theorem preserves : Cert.preserves_Kernel_KernelIdeal := trivial

/-- Both programs run; the kernel program's result array is named by its run, and the reference's run ends at its
    result term of arguments that agree with the kernel program's: the same array. -/
theorem algebraic : Cert.algebraic_KernelIdeal_ReferenceIdeal := by
  intro m ρ m' ρ' hpre hagree
  refine ⟨fun c => Cert.KernelIdeal.Gen.W6 m ρ c (Proc.devRef .tc Cert.KernelIdeal.main_v41),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact result_eq m ρ c (hpre c)

end Cert.Final

end
-- ==== Proof.lean ====
/-
  One graph-convolution layer with self loops and symmetric normalisation, a rectifier, and a batch normalisation over
  the node axis with the batch's own statistics, computed two ways over the same edge list.

  The kernel program scales every transformed row x·W by the inverse square root of its node's degree before the rows
  are gathered and summed at their destinations, scales the sum again by the destination's factor, adds the bias and
  rectifies; it accumulates column sums and column sums of squares block by block, and takes the variance as the mean
  of the squares minus the squared mean, not below zero. The reference gives every edge the product of the two
  factors, sums the weighted rows at their destinations, adds the bias and rectifies, and takes the variance as the mean
  of the squared deviations from the mean. Both end with gamma·(r − mean)·rsqrt(var + ε) + beta.

  On the extended reals with the exact operations the two are one function where the entries are real numbers:
  the features, the weights and the bias by the precondition, and the degree factors because every node has its self
  loop, so that every degree is a count that is at least one. A common real factor moves across a finite sum of real
  terms; for real entries and the divisor 100000 — the number of rows — the two formulas for the variance agree and
  the clamp at zero changes nothing.

  The modules: the abstract layer in its two spellings and their agreement (GcnSpec, LibScaleMoments, GcnJoin, LibLanding);
  the kernel program's run with its result named (KRun), its three regions' output arrays read at an entry (KRegion0,
  KRegion1, KRegion2), its host stages and what every staged array holds (KHost), the edge tables and the degree
  (KTables, KDegree), and its result at an entry as the first spelling (KEntry); the reference's run (RefRun) and its
  result at an entry as the second spelling (RefEntry); the two programs' stages as the same functions (Bridge); real
  entries from the precondition (PreFinite); the join and the five claims (Final).
-/
import proofs.«178751_j4887672783235_2_alg».proof.Defs
import proofs.«178751_j4887672783235_2_alg».proof.Proof.Final
import proofs.«178751_j4887672783235_2_alg».proof.Proof.Gen.Kernel
import proofs.«178751_j4887672783235_2_alg».proof.Proof.Gen.Kernel.Skeleton
import proofs.«178751_j4887672783235_2_alg».proof.Proof.Gen.Kernel.Launch
import proofs.«178751_j4887672783235_2_alg».proof.Proof.Gen.Kernel.Points
import proofs.«178751_j4887672783235_2_alg».proof.Proof.Gen.Kernel.Frame
import proofs.«178751_j4887672783235_2_alg».proof.Proof.Gen.KernelIdeal
import proofs.«178751_j4887672783235_2_alg».proof.Proof.Gen.KernelIdeal.Skeleton
import proofs.«178751_j4887672783235_2_alg».proof.Proof.Gen.KernelIdeal.Launch
import proofs.«178751_j4887672783235_2_alg».proof.Proof.Gen.KernelIdeal.Points
import proofs.«178751_j4887672783235_2_alg».proof.Proof.Gen.KernelIdeal.Frame
import proofs.«178751_j4887672783235_2_alg».proof.Proof.Gen.ReferenceIdeal
import proofs.«178751_j4887672783235_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Final.frame_k, Cert.Final.frame_ki, Cert.Final.frame_ri, Cert.Final.preserves, Cert.Final.algebraic⟩

end Cert.Proof

end
